-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x768 : Shape := ⟨3, ![64, 512, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S_ : Shape := ⟨0, ![]⟩

class Facts : Prop where
  bcast_S_S64x512x768 : S_.BroadcastsInDim S64x512x768 (![] : Fin 0 → Fin S64x512x768.rank)
  reducesTo_S64x512x768_S_d0_1_2 : S64x512x768.ReducesTo [0, 1, 2] S_
  h_S_ : 0 < S_.numel
  bcast_S_S2304x768 : S_.BroadcastsInDim S2304x768 (![] : Fin 0 → Fin S2304x768.rank)
  reducesTo_S2304x768_S_d0_1 : S2304x768.ReducesTo [0, 1] S_
  bcast_S_S2304 : S_.BroadcastsInDim S2304 (![] : Fin 0 → Fin S2304.rank)
  reducesTo_S2304_S_d0 : S2304.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S64x512x768 .f32) (main_arg1 : FVec F S2304x768 .f32) (main_arg2 : FVec F S2304 .f32) (main_arg3 : FVec F S768x768 .f32) (main_arg4 : FVec F S768 .f32) : IVec S_ 1 :=
  let main_v0 : FVec F S64x512x768 .f32 := Host.absf main_arg0
  let main_cst : FVec F S_ .f32 := constant S_ .f32 0x7F800000#32
  let main_v1 : FVec F S64x512x768 .f32 := broadcastInDim S64x512x768 ![] bcast_S_S64x512x768 main_cst
  let main_v2 : IVec S64x512x768 1 := cmpf .olt main_v0 main_v1
  let main_c : IVec S_ 1 := constantI S_ 1 1#1
  let main_v3 : IVec S_ 1 := (fun x v => Host.reduce IntOp.andi x v reducesTo_S64x512x768_S_d0_1_2 h_S_) main_v2 main_c
  let main_v4 : FVec F S2304x768 .f32 := Host.absf main_arg1
  let main_cst_0 : FVec F S_ .f32 := constant S_ .f32 0x7F800000#32
  let main_v5 : FVec F S2304x768 .f32 := broadcastInDim S2304x768 ![] bcast_S_S2304x768 main_cst_0
  let main_v6 : IVec S2304x768 1 := cmpf .olt main_v4 main_v5
  let main_c_1 : IVec S_ 1 := constantI S_ 1 1#1
  let main_v7 : IVec S_ 1 := (fun x v => Host.reduce IntOp.andi x v reducesTo_S2304x768_S_d0_1 h_S_) main_v6 main_c_1
  let main_v8 : IVec S_ 1 := andi main_v3 main_v7
  let main_v9 : FVec F S2304 .f32 := Host.absf main_arg2
  let main_cst_2 : FVec F S_ .f32 := constant S_ .f32 0x7F800000#32
  let main_v10 : FVec F S2304 .f32 := broadcastInDim S2304 ![] bcast_S_S2304 main_cst_2
  let main_v11 : IVec S2304 1 := cmpf .olt main_v9 main_v10
  let main_c_3 : IVec S_ 1 := constantI S_ 1 1#1
  let main_v12 : IVec S_ 1 := (fun x v => Host.reduce IntOp.andi x v reducesTo_S2304_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_v13 main_v16
-- ==== Kernel.lean ====
abbrev S64x512x768 : Shape := ⟨3, ![64, 512, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S64x512x1 : Shape := ⟨3, ![64, 512, 1]⟩
abbrev S1x512x768 : Shape := ⟨3, ![1, 512, 768]⟩
abbrev S1x512x1 : Shape := ⟨3, ![1, 512, 1]⟩
abbrev S512x768 : Shape := ⟨2, ![512, 768]⟩
abbrev S1x768 : Shape := ⟨2, ![1, 768]⟩
abbrev S512x64 : Shape := ⟨2, ![512, 64]⟩
abbrev S512x512 : Shape := ⟨2, ![512, 512]⟩
abbrev S512 : Shape := ⟨1, ![512]⟩
abbrev S512x1 : Shape := ⟨2, ![512, 1]⟩

abbrev nBuf : Space → Nat
  | .hbm => 8
  | .vmem => 9
  | .smem => 0
  | _ => 0

abbrev bufTy : (tb : Table) → Fin (tcTables nBuf tb) → BufTy
  | .hbm, ⟨0, _⟩ => ⟨S64x512x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S2304x768, .bf16⟩
  | .hbm, ⟨6, _⟩ => ⟨S768x768, .bf16⟩
  | .hbm, ⟨7, _⟩ => ⟨S64x512x1, .f32⟩
  | .local _ .vmem, ⟨0, _⟩ => ⟨S1x512x768, .f32⟩
  | .local _ .vmem, ⟨1, _⟩ => ⟨S1x512x768, .f32⟩
  | .local _ .vmem, ⟨2, _⟩ => ⟨S2304x768, .bf16⟩
  | .local _ .vmem, ⟨3, _⟩ => ⟨S2304, .f32⟩
  | .local _ .vmem, ⟨4, _⟩ => ⟨S768x768, .bf16⟩
  | .local _ .vmem, ⟨5, _⟩ => ⟨S768, .f32⟩
  | .local _ .vmem, ⟨6, _⟩ => ⟨S1x512x1, .f32⟩
  | .local _ .vmem, ⟨7, _⟩ => ⟨S1x512x1, .f32⟩
  | .local _ .vmem, ⟨8, _⟩ => ⟨S512x768, .f32⟩
  | _, _ => ⟨S64x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bitsLt_bf16_f32 : FTy.bits .bf16 < FTy.bits .f32
  inb_S1x512x768_S1x512x768_0_0_0 : ∀ a, (![0, 0, 0] : Fin 3 → Nat) a + S1x512x768.size a ≤ S1x512x768.size a
  h_S1x512x768 : 0 < S1x512x768.numel
  shapeCasts_S1x512x768_S512x768 : S1x512x768.ShapeCasts S512x768
  inb_S2304x768_S2304x768_0_0 : ∀ a, (![0, 0] : Fin 2 → Nat) a + S2304x768.size a ≤ S2304x768.size a
  h_S2304x768 : 0 < S2304x768.numel
  shapeCasts_S2304x768_S2304x768 : S2304x768.ShapeCasts S2304x768
  inb_S2304_S2304_0 : ∀ a, (![0] : Fin 1 → Nat) a + S2304.size a ≤ S2304.size a
  h_S2304 : 0 < S2304.numel
  slices_S2304x768_o0_0_S768x768 : S2304x768.Slices ![0, 0] S768x768
  slices_S2304x768_o768_0_S768x768 : S2304x768.Slices ![768, 0] S768x768
  slices_S2304x768_o1536_0_S768x768 : S2304x768.Slices ![1536, 0] S768x768
  slices_S2304_o0_S768 : S2304.Slices ![0] S768
  slices_S2304_o768_S768 : S2304.Slices ![768] S768
  slices_S2304_o1536_S768 : S2304.Slices ![1536] S768
  shapeCasts_S768_S1x768 : S768.ShapeCasts S1x768
  broadcasts_S1x768_S512x768 : S1x768.Broadcasts S512x768
  slices_S512x768_o0_0_S512x64 : S512x768.Slices ![0, 0] S512x64
  reduces_S512x512_S512 : S512x512.Reduces [1] S512
  shapeCasts_S512_S512x1 : S512.ShapeCasts S512x1
  broadcasts_S512x1_S512x512 : S512x1.Broadcasts S512x512
  inb_S512x768_S512x64_0_0 : ∀ a, (![0, 0] : Fin 2 → Nat) a + S512x64.size a ≤ S512x768.size a
  h_S512x64 : 0 < S512x64.numel
  shapeCasts_S512x64_S512x64 : S512x64.ShapeCasts S512x64
  slices_S512x768_o0_64_S512x64 : S512x768.Slices ![0, 64] S512x64
  inb_S512x768_S512x64_0_64 : ∀ a, (![0, 64] : Fin 2 → Nat) a + S512x64.size a ≤ S512x768.size a
  slices_S512x768_o0_128_S512x64 : S512x768.Slices ![0, 128] S512x64
  inb_S512x768_S512x64_0_128 : ∀ a, (![0, 128] : Fin 2 → Nat) a + S512x64.size a ≤ S512x768.size a
  slices_S512x768_o0_192_S512x64 : S512x768.Slices ![0, 192] S512x64
  inb_S512x768_S512x64_0_192 : ∀ a, (![0, 192] : Fin 2 → Nat) a + S512x64.size a ≤ S512x768.size a
  slices_S512x768_o0_256_S512x64 : S512x768.Slices ![0, 256] S512x64
  inb_S512x768_S512x64_0_256 : ∀ a, (![0, 256] : Fin 2 → Nat) a + S512x64.size a ≤ S512x768.size a
  slices_S512x768_o0_320_S512x64 : S512x768.Slices ![0, 320] S512x64
  inb_S512x768_S512x64_0_320 : ∀ a, (![0, 320] : Fin 2 → Nat) a + S512x64.size a ≤ S512x768.size a
  slices_S512x768_o0_384_S512x64 : S512x768.Slices ![0, 384] S512x64
  inb_S512x768_S512x64_0_384 : ∀ a, (![0, 384] : Fin 2 → Nat) a + S512x64.size a ≤ S512x768.size a
  slices_S512x768_o0_448_S512x64 : S512x768.Slices ![0, 448] S512x64
  inb_S512x768_S512x64_0_448 : ∀ a, (![0, 448] : Fin 2 → Nat) a + S512x64.size a ≤ S512x768.size a
  slices_S512x768_o0_512_S512x64 : S512x768.Slices ![0, 512] S512x64
  inb_S512x768_S512x64_0_512 : ∀ a, (![0, 512] : Fin 2 → Nat) a + S512x64.size a ≤ S512x768.size a
  slices_S512x768_o0_576_S512x64 : S512x768.Slices ![0, 576] S512x64
  inb_S512x768_S512x64_0_576 : ∀ a, (![0, 576] : Fin 2 → Nat) a + S512x64.size a ≤ S512x768.size a
  slices_S512x768_o0_640_S512x64 : S512x768.Slices ![0, 640] S512x64
  inb_S512x768_S512x64_0_640 : ∀ a, (![0, 640] : Fin 2 → Nat) a + S512x64.size a ≤ S512x768.size a
  slices_S512x768_o0_704_S512x64 : S512x768.Slices ![0, 704] S512x64
  inb_S512x768_S512x64_0_704 : ∀ a, (![0, 704] : Fin 2 → Nat) a + S512x64.size a ≤ S512x768.size a
  inb_S512x768_S512x768_0_0 : ∀ a, (![0, 0] : Fin 2 → Nat) a + S512x768.size a ≤ S512x768.size a
  h_S512x768 : 0 < S512x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  reduces_S512x768_S512 : S512x768.Reduces [1] S512
  broadcasts_S512x1_S512x768 : S512x1.Broadcasts S512x768
  inb_S1x512x1_S1x512x1_0_0_0 : ∀ a, (![0, 0, 0] : Fin 3 → Nat) a + S1x512x1.size a ≤ S1x512x1.size a
  h_S1x512x1 : 0 < S1x512x1.numel
  shapeCasts_S1x512x1_S512x1 : S1x512x1.ShapeCasts S512x1
  shapeCasts_S512x1_S1x512x1 : S512x1.ShapeCasts S1x512x1
  dot_S512x768_S768x768_S512x768_1_1_0_0_n_n_wf : DotDims.WF S512x768 S768x768 S512x768 [1] [1] [0] [0] [] []
  dot_S512x64_S512x64_S512x512_1_1_0_0_n_n_wf : DotDims.WF S512x64 S512x64 S512x512 [1] [1] [0] [0] [] []
  dot_S512x512_S512x64_S512x64_1_0_0_1_n_n_wf : DotDims.WF S512x512 S512x64 S512x64 [1] [0] [0] [1] [] []
  dot_S512x768_S512x768_S512x512_1_1_0_0_n_n_wf : DotDims.WF S512x768 S512x768 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x768.size a ≤ S64x512x768.size a
  hwx0_0 : ∀ i : grid0.Coords, EltTy.bits .f32 = 32 ∨ (Rect.block (s := S64x512x768) S1x512x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2304x768.size a ≤ S2304x768.size a
  hwx0_1 : ∀ i : grid0.Coords, EltTy.bits .bf16 = 32 ∨ (Rect.block (s := S2304x768) S2304x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2304.size a ≤ S2304.size a
  hwx0_2 : ∀ i : grid0.Coords, EltTy.bits .f32 = 32 ∨ (Rect.block (s := S2304) S2304.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .bf16 = 32 ∨ (Rect.block (s := S768x768) S768x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x1.size a ≤ S64x512x1.size a
  hwx0_5 : ∀ i : grid0.Coords, EltTy.bits .f32 = 32 ∨ (Rect.block (s := S64x512x1) S1x512x1.size (cc0_transform_5 i) (hinb0_5 i)).WholeWords (EltTy.packing .f32)

variable [Facts₀]

def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf
def dot_S512x64_S512x64_S512x512_1_1_0_0_n_n : DotDims S512x64 S512x64 S512x512 where
  lhsContracting := [1]
  rhsContracting := [1]
  lhsNonContracting := [0]
  rhsNonContracting := [0]
  lhsBatch := []
  rhsBatch := []
  wf := dot_S512x64_S512x64_S512x512_1_1_0_0_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x768_S512x768_S512x512_1_1_0_0_n_n : DotDims S512x768 S512x768 S512x512 where
  lhsContracting := [1]
  rhsContracting := [1]
  lhsNonContracting := [0]
  rhsNonContracting := [0]
  lhsBatch := []
  rhsBatch := []
  wf := dot_S512x768_S512x768_S512x512_1_1_0_0_n_n_wf

abbrev win0_0 : Pipeline.Window sig grid0 :=
  Pipeline.Window.ofSpec (Memref.whole main_arg0) S1x512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2304x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2304.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x512x768 : Shape := ⟨3, ![64, 512, 768]⟩
abbrev S2304x768 : Shape := ⟨2, ![2304, 768]⟩
abbrev S2304 : Shape := ⟨1, ![2304]⟩
abbrev S768x768 : Shape := ⟨2, ![768, 768]⟩
abbrev S768 : Shape := ⟨1, ![768]⟩
abbrev S64x512x2304 : Shape := ⟨3, ![64, 512, 2304]⟩
abbrev S1x1x2304 : Shape := ⟨3, ![1, 1, 2304]⟩
abbrev S64x512x12x64 : Shape := ⟨4, ![64, 512, 12, 64]⟩
abbrev S64x12x512x64 : Shape := ⟨4, ![64, 12, 512, 64]⟩
abbrev S64x12x512x512 : Shape := ⟨4, ![64, 12, 512, 512]⟩
abbrev S_ : Shape := ⟨0, ![]⟩
abbrev S64x12x512 : Shape := ⟨3, ![64, 12, 512]⟩
abbrev S64x12x512x1 : Shape := ⟨4, ![64, 12, 512, 1]⟩
abbrev S1x1x768 : Shape := ⟨3, ![1, 1, 768]⟩
abbrev S64x512 : Shape := ⟨2, ![64, 512]⟩
abbrev S64x512x1 : Shape := ⟨3, ![64, 512, 1]⟩
abbrev S64x512x512 : Shape := ⟨3, ![64, 512, 512]⟩

abbrev nBuf : Space → Nat
  | .hbm => 60
  | .vmem => 0
  | .smem => 0
  | _ => 0

abbrev bufTy : (tb : Table) → Fin (tcTables nBuf tb) → BufTy
  | .hbm, ⟨0, _⟩ => ⟨S64x512x768, .f32⟩
  | .hbm, ⟨1, _⟩ => ⟨S2304x768, .f32⟩
  | .hbm, ⟨2, _⟩ => ⟨S2304, .f32⟩
  | .hbm, ⟨3, _⟩ => ⟨S768x768, .f32⟩
  | .hbm, ⟨4, _⟩ => ⟨S768, .f32⟩
  | .hbm, ⟨5, _⟩ => ⟨S64x512x2304, .f32⟩
  | .hbm, ⟨6, _⟩ => ⟨S1x1x2304, .f32⟩
  | .hbm, ⟨7, _⟩ => ⟨S64x512x2304, .f32⟩
  | .hbm, ⟨8, _⟩ => ⟨S64x512x2304, .f32⟩
  | .hbm, ⟨9, _⟩ => ⟨S64x512x768, .f32⟩
  | .hbm, ⟨10, _⟩ => ⟨S64x512x768, .f32⟩
  | .hbm, ⟨11, _⟩ => ⟨S64x512x768, .f32⟩
  | .hbm, ⟨12, _⟩ => ⟨S64x512x12x64, .f32⟩
  | .hbm, ⟨13, _⟩ => ⟨S64x12x512x64, .f32⟩
  | .hbm, ⟨14, _⟩ => ⟨S64x512x12x64, .f32⟩
  | .hbm, ⟨15, _⟩ => ⟨S64x12x512x64, .f32⟩
  | .hbm, ⟨16, _⟩ => ⟨S64x512x12x64, .f32⟩
  | .hbm, ⟨17, _⟩ => ⟨S64x12x512x64, .f32⟩
  | .hbm, ⟨18, _⟩ => ⟨S64x12x512x512, .f32⟩
  | .hbm, ⟨19, _⟩ => ⟨S_, .f32⟩
  | .hbm, ⟨20, _⟩ => ⟨S64x12x512x512, .f32⟩
  | .hbm, ⟨21, _⟩ => ⟨S64x12x512x512, .f32⟩
  | .hbm, ⟨22, _⟩ => ⟨S_, .f32⟩
  | .hbm, ⟨23, _⟩ => ⟨S64x12x512, .f32⟩
  | .hbm, ⟨24, _⟩ => ⟨S_, .f32⟩
  | .hbm, ⟨25, _⟩ => ⟨S64x12x512, .f32⟩
  | .hbm, ⟨26, _⟩ => ⟨S64x12x512, .f32⟩
  | .hbm, ⟨27, _⟩ => ⟨S64x12x512x1, .f32⟩
  | .hbm, ⟨28, _⟩ => ⟨S64x12x512x512, .f32⟩
  | .hbm, ⟨29, _⟩ => ⟨S64x12x512x512, .f32⟩
  | .hbm, ⟨30, _⟩ => ⟨S64x12x512x512, .f32⟩
  | .hbm, ⟨31, _⟩ => ⟨S_, .f32⟩
  | .hbm, ⟨32, _⟩ => ⟨S64x12x512, .f32⟩
  | .hbm, ⟨33, _⟩ => ⟨S64x12x512x1, .f32⟩
  | .hbm, ⟨34, _⟩ => ⟨S64x12x512x512, .f32⟩
  | .hbm, ⟨35, _⟩ => ⟨S64x12x512x512, .f32⟩
  | .hbm, ⟨36, _⟩ => ⟨S64x12x512x64, .f32⟩
  | .hbm, ⟨37, _⟩ => ⟨S64x512x12x64, .f32⟩
  | .hbm, ⟨38, _⟩ => ⟨S64x512x768, .f32⟩
  | .hbm, ⟨39, _⟩ => ⟨S64x512x768, .f32⟩
  | .hbm, ⟨40, _⟩ => ⟨S1x1x768, .f32⟩
  | .hbm, ⟨41, _⟩ => ⟨S64x512x768, .f32⟩
  | .hbm, ⟨42, _⟩ => ⟨S64x512x768, .f32⟩
  | .hbm, ⟨43, _⟩ => ⟨S64x512x768, .f32⟩
  | .hbm, ⟨44, _⟩ => ⟨S_, .f32⟩
  | .hbm, ⟨45, _⟩ => ⟨S64x512, .f32⟩
  | .hbm, ⟨46, _⟩ => ⟨S64x512, .f32⟩
  | .hbm, ⟨47, _⟩ => ⟨S_, .f32⟩
  | .hbm, ⟨48, _⟩ => ⟨S64x512, .f32⟩
  | .hbm, ⟨49, _⟩ => ⟨S64x512, .f32⟩
  | .hbm, ⟨50, _⟩ => ⟨S64x512x1, .f32⟩
  | .hbm, ⟨51, _⟩ => ⟨S64x512x768, .f32⟩
  | .hbm, ⟨52, _⟩ => ⟨S64x512x768, .f32⟩
  | .hbm, ⟨53, _⟩ => ⟨S64x512x512, .f32⟩
  | .hbm, ⟨54, _⟩ => ⟨S_, .f32⟩
  | .hbm, ⟨55, _⟩ => ⟨S64x512, .f32⟩
  | .hbm, ⟨56, _⟩ => ⟨S_, .f32⟩
  | .hbm, ⟨57, _⟩ => ⟨S64x512, .f32⟩
  | .hbm, ⟨58, _⟩ => ⟨S64x512, .f32⟩
  | .hbm, ⟨59, _⟩ => ⟨S64x512x1, .f32⟩
  | _, _ => ⟨S64x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_2 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_cst : Ref sig .tc := ⟨.hbm, 44, rfl⟩
abbrev main_call0_v1 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_4 : Ref sig .tc := ⟨.hbm, 54, rfl⟩
abbrev main_v41 : Ref sig .tc := ⟨.hbm, 55, rfl⟩
abbrev main_cst_5 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]

class Facts₀ : Prop where
  bcast_S2304_S1x1x2304_2 : S2304.BroadcastsInDim S1x1x2304 (![2] : Fin 1 → Fin S1x1x2304.rank)
  bcast_S1x1x2304_S64x512x2304_0_1_2 : S1x1x2304.BroadcastsInDim S64x512x2304 (![0, 1, 2] : Fin 3 → Fin S64x512x2304.rank)
  slices_S64x512x2304_S64x512x768_0_0_0 : S64x512x2304.Slices ![0, 0, 0] S64x512x768
  slices_S64x512x2304_S64x512x768_0_0_768 : S64x512x2304.Slices ![0, 0, 768] S64x512x768
  slices_S64x512x2304_S64x512x768_0_0_1536 : S64x512x2304.Slices ![0, 0, 1536] S64x512x768
  shapeCasts_S64x512x768_S64x512x12x64 : S64x512x768.ShapeCasts S64x512x12x64
  transposes_S64x512x12x64_S64x12x512x64_0_2_1_3 : S64x512x12x64.Transposes [0, 2, 1, 3] S64x12x512x64
  bcast_S_S64x12x512x512 : S_.BroadcastsInDim S64x12x512x512 (![] : Fin 0 → Fin S64x12x512x512.rank)
  reducesTo_S64x12x512x512_S64x12x512_d3 : S64x12x512x512.ReducesTo [3] S64x12x512
  h_S_ : 0 < S_.numel
  bcast_S_S64x12x512 : S_.BroadcastsInDim S64x12x512 (![] : Fin 0 → Fin S64x12x512.rank)
  bcast_S64x12x512_S64x12x512x1_0_1_2 : S64x12x512.BroadcastsInDim S64x12x512x1 (![0, 1, 2] : Fin 3 → Fin S64x12x512x1.rank)
  bcast_S64x12x512x1_S64x12x512x512_0_1_2_3 : S64x12x512x1.BroadcastsInDim S64x12x512x512 (![0, 1, 2, 3] : Fin 4 → Fin S64x12x512x512.rank)
  transposes_S64x12x512x64_S64x512x12x64_0_2_1_3 : S64x12x512x64.Transposes [0, 2, 1, 3] S64x512x12x64
  shapeCasts_S64x512x12x64_S64x512x768 : S64x512x12x64.ShapeCasts S64x512x768
  bcast_S768_S1x1x768_2 : S768.BroadcastsInDim S1x1x768 (![2] : Fin 1 → Fin S1x1x768.rank)
  bcast_S1x1x768_S64x512x768_0_1_2 : S1x1x768.BroadcastsInDim S64x512x768 (![0, 1, 2] : Fin 3 → Fin S64x512x768.rank)
  reducesTo_S64x512x768_S64x512_d2 : S64x512x768.ReducesTo [2] S64x512
  bcast_S_S64x512 : S_.BroadcastsInDim S64x512 (![] : Fin 0 → Fin S64x512.rank)
  bcast_S64x512_S64x512x1_0_1 : S64x512.BroadcastsInDim S64x512x1 (![0, 1] : Fin 2 → Fin S64x512x1.rank)
  bcast_S64x512x1_S64x512x768_0_1_2 : S64x512x1.BroadcastsInDim S64x512x768 (![0, 1, 2] : Fin 3 → Fin S64x512x768.rank)
  reducesTo_S64x512x512_S64x512_d1 : S64x512x512.ReducesTo [1] S64x512
  dot_S64x512x768_S2304x768_S64x512x2304_2_1_01_0_n_n_wf : DotDims.WF S64x512x768 S2304x768 S64x512x2304 [2] [1] [0, 1] [0] [] []
  dot_S64x12x512x64_S64x12x512x64_S64x12x512x512_3_3_2_2_01_01_wf : DotDims.WF S64x12x512x64 S64x12x512x64 S64x12x512x512 [3] [3] [2] [2] [0, 1] [0, 1]
  dot_S64x12x512x512_S64x12x512x64_S64x12x512x64_3_2_2_3_01_01_wf : DotDims.WF S64x12x512x512 S64x12x512x64 S64x12x512x64 [3] [2] [2] [3] [0, 1] [0, 1]
  dot_S64x512x768_S768x768_S64x512x768_2_1_01_0_n_n_wf : DotDims.WF S64x512x768 S768x768 S64x512x768 [2] [1] [0, 1] [0] [] []
  dot_S64x512x768_S64x512x768_S64x512x512_2_2_1_1_0_0_wf : DotDims.WF S64x512x768 S64x512x768 S64x512x512 [2] [2] [1] [1] [0] [0]

variable [Facts₀]

def dot_S64x512x768_S2304x768_S64x512x2304_2_1_01_0_n_n : DotDims S64x512x768 S2304x768 S64x512x2304 where
  lhsContracting := [2]
  rhsContracting := [1]
  lhsNonContracting := [0, 1]
  rhsNonContracting := [0]
  lhsBatch := []
  rhsBatch := []
  wf := dot_S64x512x768_S2304x768_S64x512x2304_2_1_01_0_n_n_wf
def dot_S64x12x512x64_S64x12x512x64_S64x12x512x512_3_3_2_2_01_01 : DotDims S64x12x512x64 S64x12x512x64 S64x12x512x512 where
  lhsContracting := [3]
  rhsContracting := [3]
  lhsNonContracting := [2]
  rhsNonContracting := [2]
  lhsBatch := [0, 1]
  rhsBatch := [0, 1]
  wf := dot_S64x12x512x64_S64x12x512x64_S64x12x512x512_3_3_2_2_01_01_wf
def dot_S64x12x512x512_S64x12x512x64_S64x12x512x64_3_2_2_3_01_01 : DotDims S64x12x512x512 S64x12x512x64 S64x12x512x64 where
  lhsContracting := [3]
  rhsContracting := [2]
  lhsNonContracting := [2]
  rhsNonContracting := [3]
  lhsBatch := [0, 1]
  rhsBatch := [0, 1]
  wf := dot_S64x12x512x512_S64x12x512x64_S64x12x512x64_3_2_2_3_01_01_wf
def dot_S64x512x768_S768x768_S64x512x768_2_1_01_0_n_n : DotDims S64x512x768 S768x768 S64x512x768 where
  lhsContracting := [2]
  rhsContracting := [1]
  lhsNonContracting := [0, 1]
  rhsNonContracting := [0]
  lhsBatch := []
  rhsBatch := []
  wf := dot_S64x512x768_S768x768_S64x512x768_2_1_01_0_n_n_wf
def dot_S64x512x768_S64x512x768_S64x512x512_2_2_1_1_0_0 : DotDims S64x512x768 S64x512x768 S64x512x512 where
  lhsContracting := [2]
  rhsContracting := [2]
  lhsNonContracting := [1]
  rhsNonContracting := [1]
  lhsBatch := [0]
  rhsBatch := [0]
  wf := dot_S64x512x768_S64x512x768_S64x512x512_2_2_1_1_0_0_wf

class Facts : Prop extends Facts₀ where

variable [Facts]
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.LibUnitAxes.lean ====
/-
  Two leading unit axes dropped or added, and a row maximum, read at an index.

  A block `[1, 1, a, b]` of a rank-4 array and the matrix `[a, b]` it is cast to hold the same entries in the same
  row-major order: entry `(0, 0, i, j)` of the one is entry `(i, j)` of the other, in both directions.  A float
  maximum over the last axis of an `[a, b]` matrix is, at row `i`, the maximum from the starting value over the
  entries `(i, f)` of that row.  Stated for any extents and any element type.
-/
import Idealize.ShloMosaic.Lib.ValueLayout
import Idealize.ShloMosaic.PureOps.Ideal.Laws

noncomputable section

namespace Cert.LibUnitAxes

open Idealize.ShloMosaic Idealize.ShloMosaic.ValueIdx

variable {α : Type}

/-- A block `[1, 1, a, b]` cast to the matrix `[a, b]` reads, at `(i, j)`, the block at `(0, 0, i, j)`. -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp)

/-- A matrix `[a, b]` cast to a block `[1, 1, a, b]` reads, at `(u, v, i, j)`, the matrix at `(i, j)`, whatever the unit
    coordinates. -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]; simp)

/-- On the extended reals a float maximum over the last axis of an `[a, b]` matrix reads, at row `i`, the maximum
    from the starting value over that row's entries. -/
theorem multiReduction_maximumf_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun f : Fin b => src (ix2 i f)) := by
  refine (Ideal.multiReduction_maximumf_single src acc h hφ hacc (ix1 i)).trans ?_
  refine congrArg (fun g => (Finset.univ : Finset (Fin b)).fold max (Ideal.ofBits φ acc) g) ?_
  funext f
  exact congrArg src (funext fun d => Fin.ext (by
    match d with
    | ⟨0, _⟩ => rfl
    | ⟨1, _⟩ => rfl))

end Cert.LibUnitAxes

end
-- ==== Proof.LibSoftmaxRows.lean ====
/-
  The softmax of every row of an f32 matrix, as the vector operations a kernel body spells it with, read at an entry
  on the extended reals, for any extents.

  For an [a, b] matrix s,  m = max(s, axis=-1, keepdims=True); p = exp(s - m); p / sum(p, axis=-1, keepdims=True)  is:
  a maximum over the last axis started at minus infinity, kept as a column and spread back over the rows; a
  subtraction and an exponential; a sum over the last axis started at zero, kept as a column and spread back; a
  division; and, where a product in a narrower format follows, a narrowing, which is the identity on the extended
  reals.  Read at (r, c) the chain is
      exp (s[r, c] − max_c' s[r, c']) / Σ_c'' exp (s[r, c''] − max_c' s[r, c']).
  The same function is written once over plain matrices (`rowMax`, `expShift`, `softmax`), so that the other side of
  a comparison can be shown equal to it too; a host program that takes the row maximum once more against minus
  infinity changes nothing (`max_fold_max`).
-/
import proofs.«115419_j39410619908371_1_alg».proof.Proof.LibKeepdims
import proofs.«115419_j39410619908371_1_alg».proof.Proof.LibUnitAxes

noncomputable section

open scoped BigOperators

namespace Cert.LibSoftmaxRows

open Idealize.ShloMosaic Idealize.ShloMosaic.ValueIdx

/-- An a × b matrix of extended reals. -/
abbrev Mat (a b : ℕ) : Type := Fin a → Fin b → EReal

/-- A rank-2 vector value as a matrix. -/
abbrev mat {a b : ℕ} {φ : FTy} (v : FVec Ideal ⟨2, ![a, b]⟩ φ) : Mat a b := fun r e => v (ix2 r e)

/-- The f32 word of minus infinity, where a row maximum starts. -/
abbrev negInf : EReal := Ideal.ofBits .f32 0xFF800000#32

variable {a b : ℕ}

/-- The maximum of row r, starting from minus infinity. -/
def rowMax (s : Mat a b) (r : Fin a) : EReal := (Finset.univ : Finset (Fin b)).fold max negInf (fun c => s r c)

/-- exp (s[r, c] − max_c' s[r, c']). -/
def expShift (s : Mat a b) : Mat a b := fun r c => Ideal.exp (s r c - rowMax s r)

/-- The softmax of every row. -/
def softmax (s : Mat a b) : Mat a b := fun r c => Ideal.div (expShift s r c) (∑ c', expShift s r c')

/-- A running maximum is at least its starting value, so taking the maximum with that value again changes nothing. -/
theorem max_fold_max (z : EReal) (f : Fin b → EReal) :
    max z ((Finset.univ : Finset (Fin b)).fold max z f) = (Finset.univ : Finset (Fin b)).fold max z f :=
  max_eq_right ((Finset.le_fold_max z).2 (Or.inl le_rfl))

variable (s : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hbr : (⟨2, ![a, 1]⟩ : Shape).Broadcasts ⟨2, ![a, b]⟩) (hb : FTy.bits .bf16 < FTy.bits .f32)

/-- The row maxima (from minus infinity), kept as a column and spread back over the rows. -/
def rowMaxSpread : FVec Ideal ⟨2, ![a, b]⟩ .f32 :=
  broadcastTo ⟨2, ![a, b]⟩ (shapeCast ⟨2, ![a, 1]⟩ (multiReduction .maximumf [1] ⟨1, ![a]⟩ s 0xFF800000#32 hr (.inl rfl) rfl) hc) hbr

/-- exp (s − row maximum). -/
def expShiftVec : FVec Ideal ⟨2, ![a, b]⟩ .f32 := exp (subf s (rowMaxSpread s hr hc hbr))

/-- The exponentials divided by their row sums (from zero, kept as a column and spread back). -/
def quotVec : FVec Ideal ⟨2, ![a, b]⟩ .f32 :=
  divf (expShiftVec s hr hc hbr)
    (broadcastTo ⟨2, ![a, b]⟩ (shapeCast ⟨2, ![a, 1]⟩
      (multiReduction .add [1] ⟨1, ![a]⟩ (expShiftVec s hr hc hbr) 0x00000000#32 hr (.inl rfl) rfl) hc) hbr)

/-- The same, narrowed to bf16 for the product that follows. -/
def softmaxVec : FVec Ideal ⟨2, ![a, b]⟩ .bf16 := truncf .bf16 (quotVec s hr hc hbr) hb

theorem rowMaxSpread_apply (r : Fin a) (c : Fin b) : rowMaxSpread s hr hc hbr (ix2 r c) = rowMax (mat s) r :=
  (Cert.LibKeepdims.broadcastTo_a1_ac_apply _ hbr r c).trans
    ((Cert.LibKeepdims.shapeCast_a_a1_apply _ hc r 0).trans
      (Cert.LibUnitAxes.multiReduction_maximumf_lastAxis_apply s 0xFF800000#32 hr (.inl rfl) rfl r))

theorem expShiftVec_apply (r : Fin a) (c : Fin b) : expShiftVec s hr hc hbr (ix2 r c) = expShift (mat s) r c := by
  show Ideal.exp (s (ix2 r c) - rowMaxSpread s hr hc hbr (ix2 r c)) = _
  rw [rowMaxSpread_apply]
  rfl

theorem quotVec_apply (r : Fin a) (c : Fin b) : quotVec s hr hc hbr (ix2 r c) = softmax (mat s) r c := by
  show Ideal.div (expShiftVec s hr hc hbr (ix2 r c))
      (broadcastTo ⟨2, ![a, b]⟩ (shapeCast ⟨2, ![a, 1]⟩
        (multiReduction .add [1] ⟨1, ![a]⟩ (expShiftVec s hr hc hbr) 0x00000000#32 hr (.inl rfl) rfl) hc) hbr (ix2 r c)) = _
  rw [Cert.LibKeepdims.rowSum_keepdims_broadcast_apply (expShiftVec s hr hc hbr) 0x00000000#32 hr (.inl rfl) rfl hc hbr r c,
    expShiftVec_apply]
  unfold softmax
  exact congrArg (Ideal.div (expShift (mat s) r c)) (Finset.sum_congr rfl fun f _ => expShiftVec_apply s hr hc hbr r f)

theorem softmaxVec_apply (r : Fin a) (c : Fin b) : softmaxVec s hr hc hbr hb (ix2 r c) = softmax (mat s) r c :=
  quotVec_apply s hr hc hbr r c

end Cert.LibSoftmaxRows

end
-- ==== Proof.Spec.lean ====
/-
  Multi-head self-attention over the rows of a matrix, followed by the mean cosine similarity of the output rows,
  as plain functions of matrices of extended reals.

  From a matrix x (a × 768) three affine maps give the queries, keys and values: x · Wᵀ + β for three consecutive
  768-row bands of a 2304 × 768 weight matrix and of a bias vector.  Each of the twelve heads reads the 64 columns
  [64h, 64h + 64) of the three results: its scores are the scaled products q · κᵀ / 8, every row of the scores is turned
  into weights by the softmax (the exponentials of the entries minus the row's maximum, divided by their sum), and
  the head's context is the weighted sum of the value rows.  The contexts, side by side, go through one more affine
  map; every output row is divided by its Euclidean length (bounded below by a small constant), and the result at row
  i is the mean over j of the inner products of the normalised rows i and j.

  Nothing here needs the entries to be finite: only sums, products, maxima and the extended reals' own division,
  exponential and square root are used, each on both sides in the same order; the two laws below are the
  commutativity of the product (the mean may run over either index of the symmetric similarity matrix) and that
  dividing by 8 is multiplying by 1/8 on every extended real.
-/
import proofs.«115419_j39410619908371_1_alg».proof.Proof.LibSoftmaxRows
import Idealize.ShloMosaic.PureOps.Ideal

noncomputable section

open scoped BigOperators

namespace Cert.Attn

open Idealize.ShloMosaic

/- Matrices of extended reals, and the softmax of every row (the row maximum from minus infinity, the shifted
    exponentials, their quotient by the row sum), are the general ones of the row-softmax lemma file. -/
export Cert.LibSoftmaxRows (Mat negInf rowMax expShift softmax max_fold_max)

/-- The other float words both programs spell, as the extended reals they denote: one eighth (the score scale), the
    lower bound of a row's length, and 512 (the number of rows averaged). -/
abbrev eighth : EReal := Ideal.ofBits .f32 0x3E000000#32
abbrev normFloor : EReal := Ideal.ofBits .f32 0x322BCC77#32
abbrev rowCount : EReal := Ideal.ofBits .f32 0x44000000#32

variable {a b d k n : ℕ}

/-- x · Wᵀ + β: entry (r, e) is Σ_j x[r, j] · W[e, j] + β[e]. -/
def affine (x : Mat a k) (W : Mat n k) (β : Fin n → EReal) : Mat a n := fun r e => (∑ j, x r j * W e j) + β e

/-- The scaled scores q · κᵀ · (1/8). -/
def scores (q κ : Mat a d) : Mat a a := fun r c => (∑ j, q r j * κ c j) * eighth

/-- One head: softmax (q · κᵀ / 8) · v. -/
def head (q κ v : Mat a d) : Mat a d := fun r e => ∑ c, softmax (scores q κ) r c * v c e

/-- The 64 columns of a 768-column matrix that start at column off. -/
def colsAt (off : ℕ) (hoff : off + 64 ≤ 768) (m : Mat a 768) : Mat a 64 :=
  fun r e => m r ⟨off + e.val, by have := e.isLt; omega⟩

/-- Head h of the twelve: it reads columns [64h, 64h + 64) of the queries, keys and values. -/
def headAt (q κ v : Mat a 768) (h : Fin 12) : Mat a 64 :=
  head (colsAt (64 * h.val) (by have := h.isLt; omega) q) (colsAt (64 * h.val) (by have := h.isLt; omega) κ)
    (colsAt (64 * h.val) (by have := h.isLt; omega) v)

/-- The twelve contexts side by side: column j belongs to head j / 64, at its lane j mod 64. -/
def ctx (q κ v : Mat a 768) : Mat a 768 :=
  fun r j => headAt q κ v ⟨j.val / 64, by have := j.isLt; omega⟩ r ⟨j.val % 64, Nat.mod_lt _ (by norm_num)⟩

theorem ctx_at (q κ v : Mat a 768) (h : Fin 12) (r : Fin a) (e : Fin 64) (j : Fin 768) (hj : j.val = 64 * h.val + e.val) :
    ctx q κ v r j = headAt q κ v h r e := by
  have he := e.isLt
  have h1 : (⟨j.val / 64, by have := j.isLt; omega⟩ : Fin 12) = h := Fin.ext (by show j.val / 64 = h.val; omega)
  have h2 : (⟨j.val % 64, Nat.mod_lt _ (by norm_num)⟩ : Fin 64) = e := Fin.ext (by show j.val % 64 = e.val; omega)
  unfold ctx
  rw [h1, h2]

/-- The 768 rows of the stacked weights that start at row off, and the same band of the stacked bias. -/
def rowsAt (off : ℕ) (hoff : off + 768 ≤ 2304) (W : Mat 2304 k) : Mat 768 k :=
  fun e j => W ⟨off + e.val, by have := e.isLt; omega⟩ j
def segAt (off : ℕ) (hoff : off + 768 ≤ 2304) (β : Fin 2304 → EReal) : Fin 768 → EReal :=
  fun e => β ⟨off + e.val, by have := e.isLt; omega⟩

/-- One of the three input projections: x · W[off .. off + 768]ᵀ + β[off .. off + 768]. -/
def proj (off : ℕ) (hoff : off + 768 ≤ 2304) (x : Mat a 768) (W : Mat 2304 768) (β : Fin 2304 → EReal) : Mat a 768 :=
  affine x (rowsAt off hoff W) (segAt off hoff β)

/-- The Euclidean length of row i, bounded below. -/
def rowNorm (o : Mat a n) (i : Fin a) : EReal := max (Ideal.sqrt (∑ e, o i e * o i e)) normFloor

/-- Every row divided by its length. -/
def unitRows (o : Mat a n) : Mat a n := fun i e => Ideal.div (o i e) (rowNorm o i)

/-- The mean over j of the inner product of the normalised rows i and j (the sum divided by the word 512). -/
def cosMean (o : Mat a n) (i : Fin a) : EReal := Ideal.div (∑ j, ∑ e, unitRows o i e * unitRows o j e) rowCount

/-- The similarity matrix is symmetric, so the mean over the other index is the same number. -/
theorem cosMean_swap (o : Mat a n) (i : Fin a) :
    Ideal.div (∑ j, ∑ e, unitRows o j e * unitRows o i e) rowCount = cosMean o i := by
  unfold cosMean
  exact congrArg (fun s => Ideal.div s rowCount)
    (Finset.sum_congr rfl fun j _ => Finset.sum_congr rfl fun e _ => mul_comm _ _)

/-- The whole function: row i of the result for one 512 × 768 input slab. -/
def attnCos (x : Mat a 768) (W : Mat 2304 768) (β : Fin 2304 → EReal) (Wo : Mat 768 768) (βo : Fin 768 → EReal) :
    Fin a → EReal :=
  cosMean (affine (ctx (proj 0 (by norm_num) x W β) (proj 768 (by norm_num) x W β) (proj 1536 (by norm_num) x W β)) Wo βo)

/-! ## The three facts about the words -/

/-- The word 8.0 denotes the real 8, -/
theorem ofBits_eight : Ideal.ofBits .f32 0x41000000#32 = ((8 : ℝ) : EReal) := by
  simp [Ideal.ofBits, Ideal.ieee, -EReal.coe_mul]; norm_num

/-- the word 0.125 the real 1/8, -/
theorem eighth_eq : eighth = ((1 / 8 : ℝ) : EReal) := by
  simp [eighth, Ideal.ofBits, Ideal.ieee, -EReal.coe_mul]; norm_num

/-- so dividing by the one is multiplying by the other, on every extended real. -/
theorem div_eight (x : EReal) : Ideal.div x (Ideal.ofBits .f32 0x41000000#32) = x * eighth := by
  rw [ofBits_eight, eighth_eq]
  exact Ideal.div_coe (by norm_num) x

/-- The positive-zero word denotes 0. -/
theorem ofBits_zero : Ideal.ofBits .f32 0x00000000#32 = (0 : EReal) := by
  simp [Ideal.ofBits, Ideal.ieee]

end Cert.Attn

end
-- ==== Proof.LibIndexReads.lean ====
/-
  Vector and layout operations read at an index, for any extents.

  Each lemma names the one entry of the operand that an operation's result holds at a given entry, the indices written
  by their coordinates:
    * the logistic function, lane by lane;
    * a matrix product [M, K] × [N, K] with the right operand contracted on its LAST axis, into the zero accumulator:
      entry (r, e) is Σ_k lhs[r, k] · rhs[e, k];
    * a float sum over the LEADING axis of an [a, b, c] array: entry (i, j) is Σ_f src[f, i, j];
    * an array [1, b, c] broadcast along its unit axis to [a, b, c];
    * a matrix reshaped to a matrix, an [a, b, 1, 1] tensor flattened to a matrix, a vector folded into a matrix: the entry
      with the same row-major position;
    * the transpose with permutation [2, 3, 0, 1] of a rank-4 tensor: the two leading axes swapped with the two
      trailing ones.
-/
import Idealize.ShloMosaic.Lib.ValueLayout
import Idealize.ShloMosaic.Lib.Pipeline.Value
import Idealize.ShloMosaic.PureOps.Ideal.Laws

noncomputable section

open scoped BigOperators

namespace Cert.LibIndexReads

open Idealize.ShloMosaic Idealize.ShloMosaic.ValueIdx

variable {α : Type}

/-- The logistic function applied lane by lane. -/
theorem logistic_apply {s : Shape} {φ : FTy} (x : FVec Ideal s φ) (i : s.Idx) : logistic x i = Ideal.logistic (x i) := rfl

/-- Entry (r, e) of an [M, K] × [N, K] product contracted on both last axes, into the zero accumulator, is
    Σ_k lhs[r, k] · rhs[e, k]. -/
theorem matmul_transposedRhs_zero_apply {M K N : ℕ} {φ₁ φ₂ : FTy} (d : DotDims ⟨2, ![M, K]⟩ ⟨2, ![N, K]⟩ ⟨2, ![M, N]⟩)
    (hd : d = DotDims.transposedRhs M K N) (prec : Option ContractPrecision)
    (lhs : FVec Ideal ⟨2, ![M, K]⟩ φ₁) (rhs : FVec Ideal ⟨2, ![N, K]⟩ φ₂) (r : Fin M) (e : Fin N) :
    FloatOps.matmul d prec lhs rhs (constant ⟨2, ![M, N]⟩ .f32 0x00000000#32) (ix2 r e)
      = ∑ k : Fin K, lhs (ix2 r k) * rhs (ix2 e k) := by
  subst hd
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 r e) ((contrEquiv1 (DotDims.transposedRhs M K N) K rfl rfl).symm k) = ix2 r k :=
    funext fun a => Fin.ext (by
      match a with
      | ⟨0, _⟩ => rfl
      | ⟨1, _⟩ => exact hk)
  have er : (DotDims.transposedRhs M K N).rhsIdx (ix2 r e) ((contrEquiv1 (DotDims.transposedRhs M K N) K rfl rfl).symm k) = ix2 e k :=
    funext fun a => Fin.ext (by
      match a with
      | ⟨0, _⟩ => rfl
      | ⟨1, _⟩ => exact hk)
  rw [el, er]

/-- A float sum over the leading axis of an [a, b, c] array reads, at (i, j), the sum over f of the entries (f, i, j). -/
theorem multiReduction_add_axis0_apply {a b c : ℕ} {φ : FTy} (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (i : Fin b) (j : Fin c) :
    multiReduction .add [0] ⟨2, ![b, c]⟩ src acc h hφ hacc (ix2 i j) = ∑ f : Fin a, src (ix3 f i j) := by
  refine (Ideal.multiReduction_add_single src acc h hφ hacc (ix2 i j)).trans ?_
  exact Finset.sum_congr rfl fun f _ => congrArg src (funext fun d => Fin.ext (by
    match d with
    | ⟨0, _⟩ => rfl
    | ⟨1, _⟩ => rfl
    | ⟨2, _⟩ => rfl))

/-- A [1, b, c] array broadcast to [a, b, c] reads, at (p, i, j), the operand's one slab at (i, j). -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (i : Fin b) (j : Fin c) :
    broadcastTo ⟨3, ![a, b, c]⟩ v h (ix3 p i j) = v (ix3 (0 : Fin 1) i j) := by
  refine broadcastTo_apply v h (ix3 p i j) (ix3 (0 : Fin 1) i j) fun ax => ?_
  match ax with
  | ⟨0, _⟩ => rfl
  | ⟨1, _⟩ =>
    show i.val = if b = 1 then 0 else i.val
    split
    · have := i.isLt; omega
    · rfl
  | ⟨2, _⟩ =>
    show j.val = if c = 1 then 0 else j.val
    split
    · have := j.isLt; omega
    · rfl

/-- An [r, l] matrix reshaped to [s, c] reads, at (i, j), the operand at the entry with the same row-major position. -/
theorem shapeCast_matrix_apply {r l s c : ℕ} (x : (⟨2, ![r, l]⟩ : Shape).Idx → α)
    (h : (⟨2, ![r, l]⟩ : Shape).ShapeCasts ⟨2, ![s, c]⟩) (i : Fin s) (j : Fin c) (i' : Fin r) (j' : Fin l)
    (hk : i'.val * l + j'.val = i.val * c + j.val) :
    shapeCast ⟨2, ![s, c]⟩ x h (ix2 i j) = x (ix2 i' j') :=
  shapeCast_apply x h _ _ (by
    rw [Shape.rowMajor_val_two, Shape.rowMajor_val_two]
    exact hk)

/-- An [a, b, 1, 1] tensor reshaped to a matrix reads, at an entry whose row-major position is s·b + k, entry (s, k, 0, 0). -/
theorem shapeCast_ab11_matrix_apply {a b r l : ℕ} (x : (⟨4, ![a, b, 1, 1]⟩ : Shape).Idx → α)
    (h : (⟨4, ![a, b, 1, 1]⟩ : Shape).ShapeCasts ⟨2, ![r, l]⟩) (i : Fin r) (j : Fin l) (s : Fin a) (k : Fin b)
    (hk : s.val * b + k.val = i.val * l + j.val) :
    shapeCast ⟨2, ![r, l]⟩ x h (ix2 i j) = x (ix4 s k (0 : Fin 1) (0 : Fin 1)) :=
  shapeCast_apply x h _ _ (by
    rw [Shape.rowMajor_val_four, Shape.rowMajor_val_two]
    show ((s.val * b + k.val) * 1 + 0) * 1 + 0 = i.val * l + j.val
    omega)

/-- A vector folded into a matrix reads, at an entry whose row-major position is k, entry k. -/
theorem shapeCast_vec_matrix_apply {a r l : ℕ} (x : (⟨1, ![a]⟩ : Shape).Idx → α)
    (h : (⟨1, ![a]⟩ : Shape).ShapeCasts ⟨2, ![r, l]⟩) (i : Fin r) (j : Fin l) (k : Fin a)
    (hk : k.val = i.val * l + j.val) :
    shapeCast ⟨2, ![r, l]⟩ x h (ix2 i j) = x (ix1 k) :=
  shapeCast_apply x h _ _ (by
    rw [Shape.rowMajor_val_one, Shape.rowMajor_val_two]
    exact hk)

/-- The transpose with permutation [2, 3, 0, 1] of an [a, b, c, d] tensor reads, at (i, j, n, k), entry (n, k, i, j). -/
theorem transpose_2301_apply {a b c d : ℕ} (x : (⟨4, ![a, b, c, d]⟩ : Shape).Idx → α)
    (h : (⟨4, ![a, b, c, d]⟩ : Shape).Transposes [2, 3, 0, 1] ⟨4, ![c, d, a, b]⟩)
    (i : Fin c) (j : Fin d) (n : Fin a) (k : Fin b) :
    transpose ⟨4, ![c, d, a, b]⟩ [2, 3, 0, 1] x h (ix4 i j n k) = x (ix4 n k i j) :=
  transpose_apply _ x h _ _ (fun e => by
    match e with
    | ⟨0, _⟩ => rfl
    | ⟨1, _⟩ => rfl
    | ⟨2, _⟩ => rfl
    | ⟨3, _⟩ => rfl)

end Cert.LibIndexReads

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.KernelOps.lean ====
/-
  The groups of vector operations the attention body is made of, each read at an index on the extended reals.

  The body computes three projections, twelve heads and one tail, and every one of them is a fixed chain of vector
  operations with only a column or row offset changing.  Each chain is written here once, as a function of its
  operands with the offset a parameter, and read at an entry (r, e):
    * 64 columns cut out of a 768-column matrix and narrowed are the columns themselves (narrowing a float format is
      the identity on the extended reals);
    * the scaled scores are Σ_j q[r, j] · κ[c, j] times the scale word;
    * the row softmax: the row maxima and the row sums are computed along the last axis, kept as a column and spread
      back over the row, so entry (r, c) is exp (s[r, c] − max_c' s[r, c']) divided by the sum of those over the row;
    * a head is the softmax weights times the value columns;
    * a projection is x · Wᵀ + β for a band of 768 rows of the stacked weights and bias;
    * the tail is the output projection of the contexts, the row normalisation and the mean cosine similarity.
-/
import proofs.«115419_j39410619908371_1_alg».proof.Proof.Spec
import proofs.«115419_j39410619908371_1_alg».proof.Proof.LibIndexReads
import proofs.«115419_j39410619908371_1_alg».proof.Proof.LibPlainMatmul
import proofs.«115419_j39410619908371_1_alg».proof.Proof.LibKeepdims
import proofs.«115419_j39410619908371_1_alg».proof.Proof.LibUnitAxes
import proofs.«115419_j39410619908371_1_alg».proof.Proof.LibSoftmaxRows
import Idealize.ShloMosaic.Lib.ValueIdx
import Idealize.ShloMosaic.Lib.ValueLayout
import Idealize.ShloMosaic.Lib.Pipeline.Value

noncomputable section

open scoped BigOperators

namespace Cert.Attn.Ops

open Idealize.ShloMosaic Idealize.ShloMosaic.ValueIdx Cert.Attn

/- A rank-2 vector value as a matrix, and the row softmax as vector operations: the general ones. -/
export Cert.LibSoftmaxRows (mat softmaxVec softmaxVec_apply)

/-! ## 64 columns of a 768-column matrix -/

/-- Columns [off, off + 64) cut out and narrowed: entry (r, e) is the matrix at (r, off + e). -/
theorem colsSlice_apply {a : ℕ} (off : ℕ) (hoff : off + 64 ≤ 768) (x : FVec Ideal ⟨2, ![a, 768]⟩ .f32)
    (hs : (⟨2, ![a, 768]⟩ : Shape).Slices ![0, off] ⟨2, ![a, 64]⟩) (hb : FTy.bits .bf16 < FTy.bits .f32) (r : Fin a) (e : Fin 64) :
    (truncf .bf16 (extractStridedSlice ⟨2, ![a, 64]⟩ ![0, off] x hs) hb : FVec Ideal ⟨2, ![a, 64]⟩ .bf16) (ix2 r e)
      = colsAt off hoff (mat x) r e := by
  show extractStridedSlice ⟨2, ![a, 64]⟩ ![0, off] x hs (ix2 r e) = x (ix2 r ⟨off + e.val, by have := e.isLt; omega⟩)
  refine extractStridedSlice_apply ![0, off] x hs (ix2 r e) _ fun ax => ?_
  match ax with
  | ⟨0, _⟩ => show r.val = 0 + r.val; omega
  | ⟨1, _⟩ => rfl

/-! ## The scaled scores -/

/-- q · κᵀ into the zero accumulator, times the splat of the scale word. -/
theorem scaledScores_apply {a d : ℕ} (D : DotDims ⟨2, ![a, d]⟩ ⟨2, ![a, d]⟩ ⟨2, ![a, a]⟩) (hD : D = DotDims.transposedRhs a d a)
    (A B : FVec Ideal ⟨2, ![a, d]⟩ .bf16) (r c : Fin a) :
    mulf (matmul D none A B (constant ⟨2, ![a, a]⟩ .f32 0x00000000#32)) (broadcast ⟨2, ![a, a]⟩ (Scalar.ofBits .f32 0x3E000000#32)) (ix2 r c)
      = (∑ j : Fin d, A (ix2 r j) * B (ix2 c j)) * eighth := by
  show FloatOps.matmul D none A B (constant ⟨2, ![a, a]⟩ .f32 0x00000000#32) (ix2 r c) * Ideal.ofBits .f32 0x3E000000#32 = _
  rw [Cert.LibIndexReads.matmul_transposedRhs_zero_apply D hD none A B r c]

/-! ## One head -/

section Head

variable (off : ℕ) (hs : (⟨2, ![512, 768]⟩ : Shape).Slices ![0, off] ⟨2, ![512, 64]⟩) (hb : FTy.bits .bf16 < FTy.bits .f32)
  (hr : (⟨2, ![512, 512]⟩ : Shape).Reduces [1] ⟨1, ![512]⟩) (hc : (⟨1, ![512]⟩ : Shape).ShapeCasts ⟨2, ![512, 1]⟩)
  (hbr : (⟨2, ![512, 1]⟩ : Shape).Broadcasts ⟨2, ![512, 512]⟩)
  (D1 : DotDims ⟨2, ![512, 64]⟩ ⟨2, ![512, 64]⟩ ⟨2, ![512, 512]⟩) (D2 : DotDims ⟨2, ![512, 512]⟩ ⟨2, ![512, 64]⟩ ⟨2, ![512, 64]⟩)
  (q κ v : FVec Ideal ⟨2, ![512, 768]⟩ .f32)

/-- The scaled scores of the head whose columns start at off. -/
def scoresVec : FVec Ideal ⟨2, ![512, 512]⟩ .f32 :=
  mulf (matmul D1 none (truncf .bf16 (extractStridedSlice ⟨2, ![512, 64]⟩ ![0, off] q hs) hb)
      (truncf .bf16 (extractStridedSlice ⟨2, ![512, 64]⟩ ![0, off] κ hs) hb) (constant ⟨2, ![512, 512]⟩ .f32 0x00000000#32))
    (broadcast ⟨2, ![512, 512]⟩ (Scalar.ofBits .f32 0x3E000000#32))

/-- The head's context block: softmax of the scores times the value columns, into the zero accumulator. -/
def headVec : FVec Ideal ⟨2, ![512, 64]⟩ .f32 :=
  matmul D2 none (softmaxVec (scoresVec off hs hb D1 q κ) hr hc hbr hb)
    (truncf .bf16 (extractStridedSlice ⟨2, ![512, 64]⟩ ![0, off] v hs) hb) (constant ⟨2, ![512, 64]⟩ .f32 0x00000000#32)

theorem scoresVec_mat (hoff : off + 64 ≤ 768) (hD1 : D1 = DotDims.transposedRhs 512 64 512) :
    mat (scoresVec off hs hb D1 q κ) = scores (colsAt off hoff (mat q)) (colsAt off hoff (mat κ)) := by
  funext r c
  refine (scaledScores_apply D1 hD1 _ _ r c).trans ?_
  unfold scores
  refine congrArg (· * eighth) (Finset.sum_congr rfl fun j _ => ?_)
  rw [colsSlice_apply off hoff q hs hb r j, colsSlice_apply off hoff κ hs hb c j]

theorem headVec_apply (hoff : off + 64 ≤ 768) (hD1 : D1 = DotDims.transposedRhs 512 64 512) (hD2 : D2 = DotDims.plain 512 512 64)
    (r : Fin 512) (e : Fin 64) :
    headVec off hs hb hr hc hbr D1 D2 q κ v (ix2 r e)
      = head (colsAt off hoff (mat q)) (colsAt off hoff (mat κ)) (colsAt off hoff (mat v)) r e := by
  unfold headVec
  refine (matmul_plain_zero_apply D2 hD2 none _ _ r e).trans ?_
  unfold head
  refine Finset.sum_congr rfl fun c _ => ?_
  rw [softmaxVec_apply, colsSlice_apply off hoff v hs hb c e, scoresVec_mat off hs hb D1 q κ hoff hD1]

end Head

/-! ## One input projection -/

section Proj

variable (off : ℕ) (hsW : (⟨2, ![2304, 768]⟩ : Shape).Slices ![off, 0] ⟨2, ![768, 768]⟩)
  (hsb : (⟨1, ![2304]⟩ : Shape).Slices ![off] ⟨1, ![768]⟩) (hb : FTy.bits .bf16 < FTy.bits .f32)
  (hc0 : (⟨3, ![1, 512, 768]⟩ : Shape).ShapeCasts ⟨2, ![512, 768]⟩) (hc3 : (⟨2, ![2304, 768]⟩ : Shape).ShapeCasts ⟨2, ![2304, 768]⟩)
  (hc5 : (⟨1, ![768]⟩ : Shape).ShapeCasts ⟨2, ![1, 768]⟩) (hbr : (⟨2, ![1, 768]⟩ : Shape).Broadcasts ⟨2, ![512, 768]⟩)
  (D : DotDims ⟨2, ![512, 768]⟩ ⟨2, ![768, 768]⟩ ⟨2, ![512, 768]⟩)
  (x : FVec Ideal ⟨3, ![1, 512, 768]⟩ .f32) (W : FVec Ideal ⟨2, ![2304, 768]⟩ .bf16) (β : FVec Ideal ⟨1, ![2304]⟩ .f32)

/-- The block as a matrix (its leading axis has extent one), narrowed, times the transposed band of the weights, plus
    the band of the bias as a row spread over the rows. -/
def projVec : FVec Ideal ⟨2, ![512, 768]⟩ .f32 :=
  addf (matmul D none (truncf .bf16 (shapeCast ⟨2, ![512, 768]⟩ x hc0) hb)
      (extractStridedSlice ⟨2, ![768, 768]⟩ ![off, 0] (shapeCast ⟨2, ![2304, 768]⟩ W hc3) hsW) (constant ⟨2, ![512, 768]⟩ .f32 0x00000000#32))
    (broadcastTo ⟨2, ![512, 768]⟩ (shapeCast ⟨2, ![1, 768]⟩ (extractStridedSlice ⟨1, ![768]⟩ ![off] β hsb) hc5) hbr)

theorem projVec_apply (hoff : off + 768 ≤ 2304) (hD : D = DotDims.transposedRhs 512 768 768) (r : Fin 512) (e : Fin 768) :
    projVec off hsW hsb hb hc0 hc3 hc5 hbr D x W β (ix2 r e)
      = proj off hoff (fun r j => x (ix3 (0 : Fin 1) r j)) (mat W) (fun i => β (ix1 i)) r e := by
  have he := e.isLt
  show FloatOps.matmul D none (truncf .bf16 (shapeCast ⟨2, ![512, 768]⟩ x hc0) hb)
        (extractStridedSlice ⟨2, ![768, 768]⟩ ![off, 0] (shapeCast ⟨2, ![2304, 768]⟩ W hc3) hsW) (constant ⟨2, ![512, 768]⟩ .f32 0x00000000#32) (ix2 r e)
      + broadcastTo ⟨2, ![512, 768]⟩ (shapeCast ⟨2, ![1, 768]⟩ (extractStridedSlice ⟨1, ![768]⟩ ![off] β hsb) hc5) hbr (ix2 r e) = _
  rw [Cert.LibIndexReads.matmul_transposedRhs_zero_apply D hD none _ _ r e, broadcastTo_1b_ab_apply _ hbr r e,
    shapeCast_a_1a_apply _ hc5 0 e,
    extractStridedSlice_apply ![off] β hsb (ix1 e) (ix1 ⟨off + e.val, by omega⟩) (fun ax => by
      match ax with
      | ⟨0, _⟩ => rfl)]
  unfold proj affine
  refine congrArg (· + _) (Finset.sum_congr rfl fun j _ => ?_)
  have e1 : (truncf .bf16 (shapeCast ⟨2, ![512, 768]⟩ x hc0) hb : FVec Ideal ⟨2, ![512, 768]⟩ .bf16) (ix2 r j) = x (ix3 (0 : Fin 1) r j) :=
    shapeCast_1ab_ab_apply x hc0 r j
  have e2 : extractStridedSlice ⟨2, ![768, 768]⟩ ![off, 0] (shapeCast ⟨2, ![2304, 768]⟩ W hc3) hsW (ix2 e j)
      = W (ix2 ⟨off + e.val, by omega⟩ j) := by
    rw [shapeCast_self]
    refine extractStridedSlice_apply ![off, 0] W hsW (ix2 e j) _ fun ax => ?_
    match ax with
    | ⟨0, _⟩ => rfl
    | ⟨1, _⟩ => show j.val = 0 + j.val; omega
  rw [e1, e2]
  rfl

end Proj

/-! ## The tail: output projection, row normalisation, mean cosine similarity -/

section Tail

variable (hb : FTy.bits .bf16 < FTy.bits .f32)
  (hcW : (⟨2, ![768, 768]⟩ : Shape).ShapeCasts ⟨2, ![768, 768]⟩)
  (hc5 : (⟨1, ![768]⟩ : Shape).ShapeCasts ⟨2, ![1, 768]⟩) (hbr : (⟨2, ![1, 768]⟩ : Shape).Broadcasts ⟨2, ![512, 768]⟩)
  (D : DotDims ⟨2, ![512, 768]⟩ ⟨2, ![768, 768]⟩ ⟨2, ![512, 768]⟩)
  (C : FVec Ideal ⟨2, ![512, 768]⟩ .f32) (Wo : FVec Ideal ⟨2, ![768, 768]⟩ .bf16) (βo : FVec Ideal ⟨1, ![768]⟩ .f32)

/-- The output projection of the contexts. -/
def outVec : FVec Ideal ⟨2, ![512, 768]⟩ .f32 :=
  addf (matmul D none (truncf .bf16 C hb) (shapeCast ⟨2, ![768, 768]⟩ Wo hcW) (constant ⟨2, ![512, 768]⟩ .f32 0x00000000#32))
    (broadcastTo ⟨2, ![512, 768]⟩ (shapeCast ⟨2, ![1, 768]⟩ βo hc5) hbr)

theorem outVec_mat (hD : D = DotDims.transposedRhs 512 768 768) :
    mat (outVec hb hcW hc5 hbr D C Wo βo) = affine (mat C) (mat Wo) (fun i => βo (ix1 i)) := by
  funext r e
  show FloatOps.matmul D none (truncf .bf16 C hb) (shapeCast ⟨2, ![768, 768]⟩ Wo hcW) (constant ⟨2, ![512, 768]⟩ .f32 0x00000000#32) (ix2 r e)
      + broadcastTo ⟨2, ![512, 768]⟩ (shapeCast ⟨2, ![1, 768]⟩ βo hc5) hbr (ix2 r e) = _
  rw [Cert.LibIndexReads.matmul_transposedRhs_zero_apply D hD none _ _ r e, broadcastTo_1b_ab_apply _ hbr r e,
    shapeCast_a_1a_apply _ hc5 0 e, shapeCast_self]
  rfl

variable (hr7 : (⟨2, ![512, 768]⟩ : Shape).Reduces [1] ⟨1, ![512]⟩) (hr5 : (⟨2, ![512, 512]⟩ : Shape).Reduces [1] ⟨1, ![512]⟩)
  (hc : (⟨1, ![512]⟩ : Shape).ShapeCasts ⟨2, ![512, 1]⟩) (hbr1 : (⟨2, ![512, 1]⟩ : Shape).Broadcasts ⟨2, ![512, 768]⟩)
  (hc3 : (⟨2, ![512, 1]⟩ : Shape).ShapeCasts ⟨3, ![1, 512, 1]⟩)
  (D2 : DotDims ⟨2, ![512, 768]⟩ ⟨2, ![512, 768]⟩ ⟨2, ![512, 512]⟩)
  (o : FVec Ideal ⟨2, ![512, 768]⟩ .f32)

/-- The rows' lengths (square root of the sum of squares, bounded below), as a column. -/
def normCol : FVec Ideal ⟨2, ![512, 1]⟩ .f32 :=
  maximumf (sqrt (shapeCast ⟨2, ![512, 1]⟩ (multiReduction .add [1] ⟨1, ![512]⟩ (mulf o o) 0x00000000#32 hr7 (.inl rfl) rfl) hc))
    (broadcast ⟨2, ![512, 1]⟩ (Scalar.ofBits .f32 0x322BCC77#32))

/-- The rows divided by their lengths, narrowed. -/
def unitVec : FVec Ideal ⟨2, ![512, 768]⟩ .bf16 :=
  truncf .bf16 (divf o (broadcastTo ⟨2, ![512, 768]⟩ (normCol hr7 hc o) hbr1)) hb

/-- The similarity matrix's row sums divided by the word 512, as a [1, 512, 1] block. -/
def meanVec : FVec Ideal ⟨3, ![1, 512, 1]⟩ .f32 :=
  shapeCast ⟨3, ![1, 512, 1]⟩
    (divf (shapeCast ⟨2, ![512, 1]⟩
        (multiReduction .add [1] ⟨1, ![512]⟩
          (matmul D2 none (unitVec hb hr7 hc hbr1 o) (unitVec hb hr7 hc hbr1 o) (constant ⟨2, ![512, 512]⟩ .f32 0x00000000#32))
          0x00000000#32 hr5 (.inl rfl) rfl) hc)
      (broadcast ⟨2, ![512, 1]⟩ (Scalar.ofBits .f32 0x44000000#32))) hc3

theorem unitVec_apply (r : Fin 512) (e : Fin 768) : unitVec hb hr7 hc hbr1 o (ix2 r e) = unitRows (mat o) r e := by
  show Ideal.div (o (ix2 r e)) (broadcastTo ⟨2, ![512, 768]⟩ (normCol hr7 hc o) hbr1 (ix2 r e)) = _
  rw [Cert.LibKeepdims.broadcastTo_a1_ac_apply _ hbr1 r e]
  show Ideal.div (o (ix2 r e))
      (max (Ideal.sqrt (shapeCast ⟨2, ![512, 1]⟩ (multiReduction .add [1] ⟨1, ![512]⟩ (mulf o o) 0x00000000#32 hr7 (.inl rfl) rfl) hc (ix2 r 0)))
        (Ideal.ofBits .f32 0x322BCC77#32)) = _
  rw [Cert.LibKeepdims.shapeCast_a_a1_apply _ hc r 0,
    Cert.LibKeepdims.multiReduction_add_lastAxis_apply (mulf o o) 0x00000000#32 hr7 (.inl rfl) rfl r]
  rfl

theorem meanVec_apply (hD2 : D2 = DotDims.transposedRhs 512 768 512) (r : Fin 512) :
    meanVec hb hr7 hr5 hc hbr1 hc3 D2 o (ix3 (0 : Fin 1) r (0 : Fin 1)) = cosMean (mat o) r := by
  unfold meanVec
  rw [shapeCast_ab_1ab_apply _ hc3 0 r 0]
  show Ideal.div (shapeCast ⟨2, ![512, 1]⟩
        (multiReduction .add [1] ⟨1, ![512]⟩
          (matmul D2 none (unitVec hb hr7 hc hbr1 o) (unitVec hb hr7 hc hbr1 o) (constant ⟨2, ![512, 512]⟩ .f32 0x00000000#32))
          0x00000000#32 hr5 (.inl rfl) rfl) hc (ix2 r 0)) (Ideal.ofBits .f32 0x44000000#32) = _
  rw [Cert.LibKeepdims.shapeCast_a_a1_apply _ hc r 0,
    Cert.LibKeepdims.multiReduction_add_lastAxis_apply _ 0x00000000#32 hr5 (.inl rfl) rfl r]
  unfold cosMean
  refine congrArg (fun s => Ideal.div s rowCount) (Finset.sum_congr rfl fun j _ => ?_)
  refine (Cert.LibIndexReads.matmul_transposedRhs_zero_apply D2 hD2 none _ _ r j).trans ?_
  exact Finset.sum_congr rfl fun e _ => by rw [unitVec_apply, unitVec_apply]

end Tail

end Cert.Attn.Ops

end
-- ==== Proof.KernelBlock.lean ====
/-
  What one grid point of the kernel leaves in its output block, row by row, on the extended reals.

  The body computes the queries, keys and values of its 512 × 768 input block, then twelve heads, one after the
  other, each storing its 512 × 64 context into columns [64h, 64h + 64) of a scratch matrix; the scratch is then read
  back whole, sent through the output projection, normalised row by row, and the mean cosine similarity of every row
  against all rows is stored as the block's one column.

  Every head's chain of vector operations is the same chain at another column offset (the program text cuts some of
  them in two or three parts, which composed are the same chain again), so each stored tile is the one function
  "head h at (r, e)" of the queries, keys and values; the twelve tiles cover the scratch, and reading it back gives
  the twelve contexts side by side.
-/
import proofs.«115419_j39410619908371_1_alg».proof.Proof.Gen.KernelIdeal.Value
import proofs.«115419_j39410619908371_1_alg».proof.Proof.KernelOps
import Idealize.ShloMosaic.Lib.Pipeline.Value
import Idealize.ShloMosaic.Lib.Tactic

set_option maxRecDepth 16384

noncomputable section

open scoped BigOperators

open Idealize.ShloMosaic Idealize.ShloMosaic.TcCoe Idealize.SL.Sem

namespace Cert.Attn.Block

open Cert.KernelIdeal Cert.KernelIdeal.Gen Idealize.ShloMosaic.ValueIdx Cert.Attn

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-! ## The three projections -/

section Projections

variable (x0 : Vec Ideal S1x512x768 .f32) (x1 : Vec Ideal S2304x768 .bf16) (x2 : Vec Ideal S2304 .f32)

/-- The block, the stacked weights and the stacked bias as matrices and a vector. -/
abbrev xm : Mat 512 768 := fun r j => x0 (ix3 (0 : Fin 1) r j)
abbrev wm : Mat 2304 768 := fun e j => x1 (ix2 e j)
abbrev bv : Fin 2304 → EReal := fun e => x2 (ix1 e)

theorem queries_mat : Ops.mat (k0_pay4 x0 x1 x2) = proj 0 (by norm_num) (xm x0) (wm x1) (bv x2) := by
  funext r e
  exact Ops.projVec_apply 0 slices_S2304x768_o0_0_S768x768 slices_S2304_o0_S768 bitsLt_bf16_f32 shapeCasts_S1x512x768_S512x768
    shapeCasts_S2304x768_S2304x768 shapeCasts_S768_S1x768 broadcasts_S1x768_S512x768 dot_S512x768_S768x768_S512x768_1_1_0_0_n_n
    x0 x1 x2 (by norm_num) rfl r e

theorem keys_mat : Ops.mat (k0_pay5 x0 x1 x2) = proj 768 (by norm_num) (xm x0) (wm x1) (bv x2) := by
  funext r e
  exact Ops.projVec_apply 768 slices_S2304x768_o768_0_S768x768 slices_S2304_o768_S768 bitsLt_bf16_f32 shapeCasts_S1x512x768_S512x768
    shapeCasts_S2304x768_S2304x768 shapeCasts_S768_S1x768 broadcasts_S1x768_S512x768 dot_S512x768_S768x768_S512x768_1_1_0_0_n_n
    x0 x1 x2 (by norm_num) rfl r e

theorem values_mat : Ops.mat (k0_pay6 x0 x1 x2) = proj 1536 (by norm_num) (xm x0) (wm x1) (bv x2) := by
  funext r e
  exact Ops.projVec_apply 1536 slices_S2304x768_o1536_0_S768x768 slices_S2304_o1536_S768 bitsLt_bf16_f32 shapeCasts_S1x512x768_S512x768
    shapeCasts_S2304x768_S2304x768 shapeCasts_S768_S1x768 broadcasts_S1x768_S512x768 dot_S512x768_S768x768_S512x768_1_1_0_0_n_n
    x0 x1 x2 (by norm_num) rfl r e

end Projections

/-! ## The twelve heads: each stored tile is the head's chain at its column offset -/

theorem head0_eq (x0 : Vec Ideal S1x512x768 .f32) (x1 : Vec Ideal S2304x768 .bf16) (x2 : Vec Ideal S2304 .f32) :
    k0_pay8 (k0_pay7 x0 x1 x2) = Ops.headVec 0 slices_S512x768_o0_0_S512x64 bitsLt_bf16_f32 reduces_S512x512_S512 shapeCasts_S512_S512x1 broadcasts_S512x1_S512x512
      dot_S512x64_S512x64_S512x512_1_1_0_0_n_n dot_S512x512_S512x64_S512x64_1_0_0_1_n_n (k0_pay4 x0 x1 x2) (k0_pay5 x0 x1 x2) (k0_pay6 x0 x1 x2) := by
  unfold k0_pay8 k0_pay7
  exact shapeCast_self _ _

theorem head0_apply (x0 : Vec Ideal S1x512x768 .f32) (x1 : Vec Ideal S2304x768 .bf16) (x2 : Vec Ideal S2304 .f32) (r : Fin 512) (e : Fin 64) :
    (k0_pay8 (k0_pay7 x0 x1 x2)) (ix2 r e)
      = head (colsAt 0 (by norm_num) (Ops.mat (k0_pay4 x0 x1 x2))) (colsAt 0 (by norm_num) (Ops.mat (k0_pay5 x0 x1 x2))) (colsAt 0 (by norm_num) (Ops.mat (k0_pay6 x0 x1 x2))) r e := by
  rw [head0_eq]
  exact Ops.headVec_apply 0 _ _ _ _ _ _ _ _ _ _ (by norm_num) rfl rfl r e

theorem head1_eq (q κ v : FVec Ideal S512x768 .f32) :
    k0_pay9 q κ v = Ops.headVec 64 slices_S512x768_o0_64_S512x64 bitsLt_bf16_f32 reduces_S512x512_S512 shapeCasts_S512_S512x1 broadcasts_S512x1_S512x512
      dot_S512x64_S512x64_S512x512_1_1_0_0_n_n dot_S512x512_S512x64_S512x64_1_0_0_1_n_n q κ v := by
  unfold k0_pay9
  exact shapeCast_self _ _

theorem head1_apply (q κ v : FVec Ideal S512x768 .f32) (r : Fin 512) (e : Fin 64) :
    (k0_pay9 q κ v) (ix2 r e)
      = head (colsAt 64 (by norm_num) (Ops.mat q)) (colsAt 64 (by norm_num) (Ops.mat κ)) (colsAt 64 (by norm_num) (Ops.mat v)) r e := by
  rw [head1_eq]
  exact Ops.headVec_apply 64 _ _ _ _ _ _ _ _ _ _ (by norm_num) rfl rfl r e

theorem head2_eq (q κ v : FVec Ideal S512x768 .f32) :
    k0_pay12 (k0_pay10 v) (k0_pay11 q κ) (constant S512x64 .f32 0x00000000#32) = Ops.headVec 128 slices_S512x768_o0_128_S512x64 bitsLt_bf16_f32 reduces_S512x512_S512 shapeCasts_S512_S512x1 broadcasts_S512x1_S512x512
      dot_S512x64_S512x64_S512x512_1_1_0_0_n_n dot_S512x512_S512x64_S512x64_1_0_0_1_n_n q κ v := by
  unfold k0_pay12
  exact shapeCast_self _ _

theorem head2_apply (q κ v : FVec Ideal S512x768 .f32) (r : Fin 512) (e : Fin 64) :
    (k0_pay12 (k0_pay10 v) (k0_pay11 q κ) (constant S512x64 .f32 0x00000000#32)) (ix2 r e)
      = head (colsAt 128 (by norm_num) (Ops.mat q)) (colsAt 128 (by norm_num) (Ops.mat κ)) (colsAt 128 (by norm_num) (Ops.mat v)) r e := by
  rw [head2_eq]
  exact Ops.headVec_apply 128 _ _ _ _ _ _ _ _ _ _ (by norm_num) rfl rfl r e

theorem head3_eq (q κ v : FVec Ideal S512x768 .f32) :
    k0_pay13 q κ v = Ops.headVec 192 slices_S512x768_o0_192_S512x64 bitsLt_bf16_f32 reduces_S512x512_S512 shapeCasts_S512_S512x1 broadcasts_S512x1_S512x512
      dot_S512x64_S512x64_S512x512_1_1_0_0_n_n dot_S512x512_S512x64_S512x64_1_0_0_1_n_n q κ v := by
  unfold k0_pay13
  exact shapeCast_self _ _

theorem head3_apply (q κ v : FVec Ideal S512x768 .f32) (r : Fin 512) (e : Fin 64) :
    (k0_pay13 q κ v) (ix2 r e)
      = head (colsAt 192 (by norm_num) (Ops.mat q)) (colsAt 192 (by norm_num) (Ops.mat κ)) (colsAt 192 (by norm_num) (Ops.mat v)) r e := by
  rw [head3_eq]
  exact Ops.headVec_apply 192 _ _ _ _ _ _ _ _ _ _ (by norm_num) rfl rfl r e

theorem head4_eq (q κ v : FVec Ideal S512x768 .f32) :
    k0_pay16 (k0_pay14 v) (k0_pay15 q κ) = Ops.headVec 256 slices_S512x768_o0_256_S512x64 bitsLt_bf16_f32 reduces_S512x512_S512 shapeCasts_S512_S512x1 broadcasts_S512x1_S512x512
      dot_S512x64_S512x64_S512x512_1_1_0_0_n_n dot_S512x512_S512x64_S512x64_1_0_0_1_n_n q κ v := by
  unfold k0_pay16
  exact shapeCast_self _ _

theorem head4_apply (q κ v : FVec Ideal S512x768 .f32) (r : Fin 512) (e : Fin 64) :
    (k0_pay16 (k0_pay14 v) (k0_pay15 q κ)) (ix2 r e)
      = head (colsAt 256 (by norm_num) (Ops.mat q)) (colsAt 256 (by norm_num) (Ops.mat κ)) (colsAt 256 (by norm_num) (Ops.mat v)) r e := by
  rw [head4_eq]
  exact Ops.headVec_apply 256 _ _ _ _ _ _ _ _ _ _ (by norm_num) rfl rfl r e

theorem head5_eq (q κ v : FVec Ideal S512x768 .f32) :
    k0_pay17 q κ v = Ops.headVec 320 slices_S512x768_o0_320_S512x64 bitsLt_bf16_f32 reduces_S512x512_S512 shapeCasts_S512_S512x1 broadcasts_S512x1_S512x512
      dot_S512x64_S512x64_S512x512_1_1_0_0_n_n dot_S512x512_S512x64_S512x64_1_0_0_1_n_n q κ v := by
  unfold k0_pay17
  exact shapeCast_self _ _

theorem head5_apply (q κ v : FVec Ideal S512x768 .f32) (r : Fin 512) (e : Fin 64) :
    (k0_pay17 q κ v) (ix2 r e)
      = head (colsAt 320 (by norm_num) (Ops.mat q)) (colsAt 320 (by norm_num) (Ops.mat κ)) (colsAt 320 (by norm_num) (Ops.mat v)) r e := by
  rw [head5_eq]
  exact Ops.headVec_apply 320 _ _ _ _ _ _ _ _ _ _ (by norm_num) rfl rfl r e

theorem head6_eq (q κ v : FVec Ideal S512x768 .f32) :
    k0_pay21 (k0_pay18 v) (k0_pay19 q κ) (k0_pay20 q κ) = Ops.headVec 384 slices_S512x768_o0_384_S512x64 bitsLt_bf16_f32 reduces_S512x512_S512 shapeCasts_S512_S512x1 broadcasts_S512x1_S512x512
      dot_S512x64_S512x64_S512x512_1_1_0_0_n_n dot_S512x512_S512x64_S512x64_1_0_0_1_n_n q κ v := by
  unfold k0_pay21
  exact shapeCast_self _ _

theorem head6_apply (q κ v : FVec Ideal S512x768 .f32) (r : Fin 512) (e : Fin 64) :
    (k0_pay21 (k0_pay18 v) (k0_pay19 q κ) (k0_pay20 q κ)) (ix2 r e)
      = head (colsAt 384 (by norm_num) (Ops.mat q)) (colsAt 384 (by norm_num) (Ops.mat κ)) (colsAt 384 (by norm_num) (Ops.mat v)) r e := by
  rw [head6_eq]
  exact Ops.headVec_apply 384 _ _ _ _ _ _ _ _ _ _ (by norm_num) rfl rfl r e

theorem head7_eq (q κ v : FVec Ideal S512x768 .f32) :
    k0_pay22 q κ v = Ops.headVec 448 slices_S512x768_o0_448_S512x64 bitsLt_bf16_f32 reduces_S512x512_S512 shapeCasts_S512_S512x1 broadcasts_S512x1_S512x512
      dot_S512x64_S512x64_S512x512_1_1_0_0_n_n dot_S512x512_S512x64_S512x64_1_0_0_1_n_n q κ v := by
  unfold k0_pay22
  exact shapeCast_self _ _

theorem head7_apply (q κ v : FVec Ideal S512x768 .f32) (r : Fin 512) (e : Fin 64) :
    (k0_pay22 q κ v) (ix2 r e)
      = head (colsAt 448 (by norm_num) (Ops.mat q)) (colsAt 448 (by norm_num) (Ops.mat κ)) (colsAt 448 (by norm_num) (Ops.mat v)) r e := by
  rw [head7_eq]
  exact Ops.headVec_apply 448 _ _ _ _ _ _ _ _ _ _ (by norm_num) rfl rfl r e

theorem head8_eq (q κ v : FVec Ideal S512x768 .f32) :
    k0_pay25 (k0_pay23 v) (k0_pay24 q κ) = Ops.headVec 512 slices_S512x768_o0_512_S512x64 bitsLt_bf16_f32 reduces_S512x512_S512 shapeCasts_S512_S512x1 broadcasts_S512x1_S512x512
      dot_S512x64_S512x64_S512x512_1_1_0_0_n_n dot_S512x512_S512x64_S512x64_1_0_0_1_n_n q κ v := by
  unfold k0_pay25
  exact shapeCast_self _ _

theorem head8_apply (q κ v : FVec Ideal S512x768 .f32) (r : Fin 512) (e : Fin 64) :
    (k0_pay25 (k0_pay23 v) (k0_pay24 q κ)) (ix2 r e)
      = head (colsAt 512 (by norm_num) (Ops.mat q)) (colsAt 512 (by norm_num) (Ops.mat κ)) (colsAt 512 (by norm_num) (Ops.mat v)) r e := by
  rw [head8_eq]
  exact Ops.headVec_apply 512 _ _ _ _ _ _ _ _ _ _ (by norm_num) rfl rfl r e

theorem head9_eq (q κ v : FVec Ideal S512x768 .f32) :
    k0_pay26 q κ v = Ops.headVec 576 slices_S512x768_o0_576_S512x64 bitsLt_bf16_f32 reduces_S512x512_S512 shapeCasts_S512_S512x1 broadcasts_S512x1_S512x512
      dot_S512x64_S512x64_S512x512_1_1_0_0_n_n dot_S512x512_S512x64_S512x64_1_0_0_1_n_n q κ v := by
  unfold k0_pay26
  exact shapeCast_self _ _

theorem head9_apply (q κ v : FVec Ideal S512x768 .f32) (r : Fin 512) (e : Fin 64) :
    (k0_pay26 q κ v) (ix2 r e)
      = head (colsAt 576 (by norm_num) (Ops.mat q)) (colsAt 576 (by norm_num) (Ops.mat κ)) (colsAt 576 (by norm_num) (Ops.mat v)) r e := by
  rw [head9_eq]
  exact Ops.headVec_apply 576 _ _ _ _ _ _ _ _ _ _ (by norm_num) rfl rfl r e

theorem head10_eq (q κ v : FVec Ideal S512x768 .f32) :
    k0_pay29 (k0_pay27 v) (k0_pay28 q κ) = Ops.headVec 640 slices_S512x768_o0_640_S512x64 bitsLt_bf16_f32 reduces_S512x512_S512 shapeCasts_S512_S512x1 broadcasts_S512x1_S512x512
      dot_S512x64_S512x64_S512x512_1_1_0_0_n_n dot_S512x512_S512x64_S512x64_1_0_0_1_n_n q κ v := by
  unfold k0_pay29
  exact shapeCast_self _ _

theorem head10_apply (q κ v : FVec Ideal S512x768 .f32) (r : Fin 512) (e : Fin 64) :
    (k0_pay29 (k0_pay27 v) (k0_pay28 q κ)) (ix2 r e)
      = head (colsAt 640 (by norm_num) (Ops.mat q)) (colsAt 640 (by norm_num) (Ops.mat κ)) (colsAt 640 (by norm_num) (Ops.mat v)) r e := by
  rw [head10_eq]
  exact Ops.headVec_apply 640 _ _ _ _ _ _ _ _ _ _ (by norm_num) rfl rfl r e

theorem head11_eq (q κ v : FVec Ideal S512x768 .f32) :
    k0_pay30 q κ v = Ops.headVec 704 slices_S512x768_o0_704_S512x64 bitsLt_bf16_f32 reduces_S512x512_S512 shapeCasts_S512_S512x1 broadcasts_S512x1_S512x512
      dot_S512x64_S512x64_S512x512_1_1_0_0_n_n dot_S512x512_S512x64_S512x64_1_0_0_1_n_n q κ v := by
  unfold k0_pay30
  exact shapeCast_self _ _

theorem head11_apply (q κ v : FVec Ideal S512x768 .f32) (r : Fin 512) (e : Fin 64) :
    (k0_pay30 q κ v) (ix2 r e)
      = head (colsAt 704 (by norm_num) (Ops.mat q)) (colsAt 704 (by norm_num) (Ops.mat κ)) (colsAt 704 (by norm_num) (Ops.mat v)) r e := by
  rw [head11_eq]
  exact Ops.headVec_apply 704 _ _ _ _ _ _ _ _ _ _ (by norm_num) rfl rfl r e

/-! ## The scratch read back: twelve tiles of one matrix -/

/-- The contexts side by side, as a function of the scratch index. -/
def ctxG (q κ v : FVec Ideal S512x768 .f32) : S512x768.Idx → EReal :=
  fun y => ctx (Ops.mat q) (Ops.mat κ) (Ops.mat v) (y 0) (y 1)

/-- A tile stored at columns [64h, 64h + 64) whose entries are head h's is, at each of its entries, the context matrix
    at the scratch index the entry lands on. -/
theorem tile_ok (off : ℕ) (hoff : off + 64 ≤ 768) (h : Fin 12) (hh : off = 64 * h.val)
    (inb : ∀ a, (![0, off] : Fin 2 → ℕ) a + S512x64.size a ≤ S512x768.size a)
    (P : FVec Ideal S512x64 .f32) (q κ v : FVec Ideal S512x768 .f32)
    (hP : ∀ (r : Fin 512) (e : Fin 64), P (ix2 r e)
      = head (colsAt off hoff (Ops.mat q)) (colsAt off hoff (Ops.mat κ)) (colsAt off hoff (Ops.mat v)) r e)
    (x : S512x64.Idx) :
    P x = ctxG q κ v ((Rect.unit (s := S512x768) ![0, off] S512x64.size inb).emb x) := by
  subst hh
  obtain ⟨r, e, rfl⟩ : ∃ (r : Fin 512) (e : Fin 64), x = ix2 r e := ⟨x 0, x 1, eq_ix2 x⟩
  rw [hP]
  unfold ctxG
  have hR : (Rect.unit (s := S512x768) ![0, 64 * h.val] S512x64.size inb).emb (ix2 r e) 0 = r :=
    Fin.ext (by show 0 + 1 * r.val = r.val; omega)
  have hJ : ((Rect.unit (s := S512x768) ![0, 64 * h.val] S512x64.size inb).emb (ix2 r e) 1).val = 64 * h.val + e.val := by
    show 64 * h.val + 1 * e.val = 64 * h.val + e.val; omega
  rw [hR, ctx_at (Ops.mat q) (Ops.mat κ) (Ops.mat v) h r e _ hJ]
  rfl

section Scratch

variable (x0 : Vec Ideal S1x512x768 .f32) (x1 : Vec Ideal S2304x768 .bf16) (x2 : Vec Ideal S2304 .f32)

/-- The body's twelve stores into the scratch, the last one first. -/
def pieces : List (View.Piece (Elt Ideal) S512x768 .f32) :=
  [⟨Rect.unit ![0, 704] S512x64.size inb_S512x768_S512x64_0_704, k0_pay30 (k0_pay4 x0 x1 x2) (k0_pay5 x0 x1 x2) (k0_pay6 x0 x1 x2)⟩,
    ⟨Rect.unit ![0, 640] S512x64.size inb_S512x768_S512x64_0_640, k0_pay29 (k0_pay27 (k0_pay6 x0 x1 x2)) (k0_pay28 (k0_pay4 x0 x1 x2) (k0_pay5 x0 x1 x2))⟩,
    ⟨Rect.unit ![0, 576] S512x64.size inb_S512x768_S512x64_0_576, k0_pay26 (k0_pay4 x0 x1 x2) (k0_pay5 x0 x1 x2) (k0_pay6 x0 x1 x2)⟩,
    ⟨Rect.unit ![0, 512] S512x64.size inb_S512x768_S512x64_0_512, k0_pay25 (k0_pay23 (k0_pay6 x0 x1 x2)) (k0_pay24 (k0_pay4 x0 x1 x2) (k0_pay5 x0 x1 x2))⟩,
    ⟨Rect.unit ![0, 448] S512x64.size inb_S512x768_S512x64_0_448, k0_pay22 (k0_pay4 x0 x1 x2) (k0_pay5 x0 x1 x2) (k0_pay6 x0 x1 x2)⟩,
    ⟨Rect.unit ![0, 384] S512x64.size inb_S512x768_S512x64_0_384, k0_pay21 (k0_pay18 (k0_pay6 x0 x1 x2)) (k0_pay19 (k0_pay4 x0 x1 x2) (k0_pay5 x0 x1 x2)) (k0_pay20 (k0_pay4 x0 x1 x2) (k0_pay5 x0 x1 x2))⟩,
    ⟨Rect.unit ![0, 320] S512x64.size inb_S512x768_S512x64_0_320, k0_pay17 (k0_pay4 x0 x1 x2) (k0_pay5 x0 x1 x2) (k0_pay6 x0 x1 x2)⟩,
    ⟨Rect.unit ![0, 256] S512x64.size inb_S512x768_S512x64_0_256, k0_pay16 (k0_pay14 (k0_pay6 x0 x1 x2)) (k0_pay15 (k0_pay4 x0 x1 x2) (k0_pay5 x0 x1 x2))⟩,
    ⟨Rect.unit ![0, 192] S512x64.size inb_S512x768_S512x64_0_192, k0_pay13 (k0_pay4 x0 x1 x2) (k0_pay5 x0 x1 x2) (k0_pay6 x0 x1 x2)⟩,
    ⟨Rect.unit ![0, 128] S512x64.size inb_S512x768_S512x64_0_128, k0_pay12 (k0_pay10 (k0_pay6 x0 x1 x2)) (k0_pay11 (k0_pay4 x0 x1 x2) (k0_pay5 x0 x1 x2)) (constant S512x64 .f32 0x00000000#32)⟩,
    ⟨Rect.unit ![0, 64] S512x64.size inb_S512x768_S512x64_0_64, k0_pay9 (k0_pay4 x0 x1 x2) (k0_pay5 x0 x1 x2) (k0_pay6 x0 x1 x2)⟩,
    ⟨Rect.unit ![0, 0] S512x64.size inb_S512x768_S512x64_0_0, k0_pay8 (k0_pay7 x0 x1 x2)⟩]

theorem pieces_tiles : ∀ p ∈ pieces x0 x1 x2, ∀ x : p.1.shape.Idx,
    p.2 x = ctxG (k0_pay4 x0 x1 x2) (k0_pay5 x0 x1 x2) (k0_pay6 x0 x1 x2) (p.1.emb x) := by
  intro p hp
  simp only [pieces, List.mem_cons, List.mem_nil_iff, or_false] at hp
  rcases hp with rfl | rfl | rfl | rfl | rfl | rfl | rfl | rfl | rfl | rfl | rfl | rfl
  · exact tile_ok 704 (by norm_num) ⟨11, by norm_num⟩ rfl inb_S512x768_S512x64_0_704 _ _ _ _ (head11_apply _ _ _)
  · exact tile_ok 640 (by norm_num) ⟨10, by norm_num⟩ rfl inb_S512x768_S512x64_0_640 _ _ _ _ (head10_apply _ _ _)
  · exact tile_ok 576 (by norm_num) ⟨9, by norm_num⟩ rfl inb_S512x768_S512x64_0_576 _ _ _ _ (head9_apply _ _ _)
  · exact tile_ok 512 (by norm_num) ⟨8, by norm_num⟩ rfl inb_S512x768_S512x64_0_512 _ _ _ _ (head8_apply _ _ _)
  · exact tile_ok 448 (by norm_num) ⟨7, by norm_num⟩ rfl inb_S512x768_S512x64_0_448 _ _ _ _ (head7_apply _ _ _)
  · exact tile_ok 384 (by norm_num) ⟨6, by norm_num⟩ rfl inb_S512x768_S512x64_0_384 _ _ _ _ (head6_apply _ _ _)
  · exact tile_ok 320 (by norm_num) ⟨5, by norm_num⟩ rfl inb_S512x768_S512x64_0_320 _ _ _ _ (head5_apply _ _ _)
  · exact tile_ok 256 (by norm_num) ⟨4, by norm_num⟩ rfl inb_S512x768_S512x64_0_256 _ _ _ _ (head4_apply _ _ _)
  · exact tile_ok 192 (by norm_num) ⟨3, by norm_num⟩ rfl inb_S512x768_S512x64_0_192 _ _ _ _ (head3_apply _ _ _)
  · exact tile_ok 128 (by norm_num) ⟨2, by norm_num⟩ rfl inb_S512x768_S512x64_0_128 _ _ _ _ (head2_apply _ _ _)
  · exact tile_ok 64 (by norm_num) ⟨1, by norm_num⟩ rfl inb_S512x768_S512x64_0_64 _ _ _ _ (head1_apply _ _ _)
  · exact tile_ok 0 (by norm_num) ⟨0, by norm_num⟩ rfl inb_S512x768_S512x64_0_0 _ _ _ _ (head0_apply x0 x1 x2)

theorem pieces_cover (y : S512x768.Idx) : ∃ p ∈ pieces x0 x1 x2, y ∈ p.1.set := by
  have h1 : (y 1).val < 768 := (y 1).isLt
  have h0 : (y 0).val < 512 := (y 0).isLt
  have key : ∀ (off : ℕ) (inb : ∀ a, (![0, off] : Fin 2 → ℕ) a + S512x64.size a ≤ S512x768.size a), off ≤ (y 1).val →
      (y 1).val < off + 64 → y ∈ (Rect.unit (s := S512x768) ![0, off] S512x64.size inb).set := by
    intro off inb hlo hhi
    rw [Rect.mem_set_unit]
    intro a
    match a with
    | ⟨0, _⟩ => exact ⟨Nat.zero_le _, by show (y 0).val < 0 + 512; omega⟩
    | ⟨1, _⟩ => exact ⟨hlo, by show (y 1).val < off + 64; exact hhi⟩
  by_cases c11 : 704 ≤ (y 1).val
  · exact ⟨(pieces x0 x1 x2)[0]'(by simp [pieces]), List.getElem_mem _, key 704 inb_S512x768_S512x64_0_704 c11 (by omega)⟩
  by_cases c10 : 640 ≤ (y 1).val
  · exact ⟨(pieces x0 x1 x2)[1]'(by simp [pieces]), List.getElem_mem _, key 640 inb_S512x768_S512x64_0_640 c10 (by omega)⟩
  by_cases c9 : 576 ≤ (y 1).val
  · exact ⟨(pieces x0 x1 x2)[2]'(by simp [pieces]), List.getElem_mem _, key 576 inb_S512x768_S512x64_0_576 c9 (by omega)⟩
  by_cases c8 : 512 ≤ (y 1).val
  · exact ⟨(pieces x0 x1 x2)[3]'(by simp [pieces]), List.getElem_mem _, key 512 inb_S512x768_S512x64_0_512 c8 (by omega)⟩
  by_cases c7 : 448 ≤ (y 1).val
  · exact ⟨(pieces x0 x1 x2)[4]'(by simp [pieces]), List.getElem_mem _, key 448 inb_S512x768_S512x64_0_448 c7 (by omega)⟩
  by_cases c6 : 384 ≤ (y 1).val
  · exact ⟨(pieces x0 x1 x2)[5]'(by simp [pieces]), List.getElem_mem _, key 384 inb_S512x768_S512x64_0_384 c6 (by omega)⟩
  by_cases c5 : 320 ≤ (y 1).val
  · exact ⟨(pieces x0 x1 x2)[6]'(by simp [pieces]), List.getElem_mem _, key 320 inb_S512x768_S512x64_0_320 c5 (by omega)⟩
  by_cases c4 : 256 ≤ (y 1).val
  · exact ⟨(pieces x0 x1 x2)[7]'(by simp [pieces]), List.getElem_mem _, key 256 inb_S512x768_S512x64_0_256 c4 (by omega)⟩
  by_cases c3 : 192 ≤ (y 1).val
  · exact ⟨(pieces x0 x1 x2)[8]'(by simp [pieces]), List.getElem_mem _, key 192 inb_S512x768_S512x64_0_192 c3 (by omega)⟩
  by_cases c2 : 128 ≤ (y 1).val
  · exact ⟨(pieces x0 x1 x2)[9]'(by simp [pieces]), List.getElem_mem _, key 128 inb_S512x768_S512x64_0_128 c2 (by omega)⟩
  by_cases c1 : 64 ≤ (y 1).val
  · exact ⟨(pieces x0 x1 x2)[10]'(by simp [pieces]), List.getElem_mem _, key 64 inb_S512x768_S512x64_0_64 c1 (by omega)⟩
  exact ⟨(pieces x0 x1 x2)[11]'(by simp [pieces]), List.getElem_mem _, key 0 inb_S512x768_S512x64_0_0 (Nat.zero_le _) (by omega)⟩

/-- The scratch read back whole after the twelve stores is the context matrix. -/
theorem scratch_eq {sig' : RefSig} {κ' : Kind} {sp' : Space} (vw : View sig' κ' sp' S512x768 .f32) :
    vw.readCov (pieces x0 x1 x2) (Rect.unit ![0, 0] S512x768.size inb_S512x768_S512x768_0_0).toLoadRect
      = ctxG (k0_pay4 x0 x1 x2) (k0_pay5 x0 x1 x2) (k0_pay6 x0 x1 x2) := by
  rw [View.readCov_eq_canon']
  show View.ld (View.canon (pieces x0 x1 x2)) (Rect.unit ![0, 0] S512x768.size inb_S512x768_S512x768_0_0) = _
  rw [View.ld_unit_zero (S := S512x768) hz2]
  funext y
  exact View.canon_apply_of_pieces _ (pieces x0 x1 x2) (pieces_tiles x0 x1 x2) y (pieces_cover x0 x1 x2 y)

end Scratch

/-! ## The tail, and the block -/

/-- The body's last payloads are the tail's chain of the scratch contents, the output weights and the output bias. -/
theorem tail_eq (C : FVec Ideal S512x768 .f32) (x3 : Vec Ideal S768x768 .bf16) (x4 : Vec Ideal S768 .f32) :
    k0_pay1 (k0_pay31 C x3) (k0_pay32 x4)
      = Ops.meanVec bitsLt_bf16_f32 reduces_S512x768_S512 reduces_S512x512_S512 shapeCasts_S512_S512x1 broadcasts_S512x1_S512x768
          shapeCasts_S512x1_S1x512x1 dot_S512x768_S512x768_S512x512_1_1_0_0_n_n
          (Ops.outVec bitsLt_bf16_f32 shapeCasts_S768x768_S768x768 shapeCasts_S768_S1x768 broadcasts_S1x768_S512x768
            dot_S512x768_S768x768_S512x768_1_1_0_0_n_n C x3 x4) := rfl

set_option maxHeartbeats 1000000 in
/-- WHAT A POINT LEAVES, row r of its block: the attention-and-cosine function of the block of the input it was given
    and of the whole weight and bias arrays. -/
theorem block_apply (c : Dev nD) (i : grid0.Coords) (arg1 : Memref sig .tc .vmem S1x512x768 .f32) (harg1 : arg1.IsWhole) (arg2 : Memref sig .tc .vmem S2304x768 .bf16) (harg2 : arg2.IsWhole) (arg3 : Memref sig .tc .vmem S2304 .f32) (harg3 : arg3.IsWhole) (arg4 : Memref sig .tc .vmem S768x768 .bf16) (harg4 : arg4.IsWhole) (arg5 : Memref sig .tc .vmem S768 .f32) (harg5 : arg5.IsWhole) (arg6 : Memref sig .tc .vmem S1x512x1 .f32) (harg6 : arg6.IsWhole) (arg7 : Memref sig .tc .vmem S512x768 .f32) (harg7 : arg7.IsWhole)
    (x0 : Vec Ideal S1x512x768 .f32) (x1 : Vec Ideal S2304x768 .bf16) (x2 : Vec Ideal S2304 .f32) (x3 : Vec Ideal S768x768 .bf16) (x4 : Vec Ideal S768 .f32) (r : Fin 512) :
    out0_A_5 (F := Ideal) c i arg1 harg1 arg2 harg2 arg3 harg3 arg4 harg4 arg5 harg5 arg6 harg6 arg7 harg7 x0 x1 x2 x3 x4 (ix3 (0 : Fin 1) r (0 : Fin 1))
      = attnCos (xm x0) (wm x1) (bv x2) (fun e j => x3 (ix2 e j)) (fun e => x4 (ix1 e)) r := by
  have hb : out0_A_5 (F := Ideal) c i arg1 harg1 arg2 harg2 arg3 harg3 arg4 harg4 arg5 harg5 arg6 harg6 arg7 harg7 x0 x1 x2 x3 x4
      = k0_pay1 (k0_pay31 (arg7.view.readCov (pieces x0 x1 x2) (Rect.unit ![0, 0] S512x768.size inb_S512x768_S512x768_0_0).toLoadRect) x3)
          (k0_pay32 x4) := by
    unfold out0_A_5
    rw [View.read_writes_eq_canon _ _ _ (cover0_A_5 c i arg1 harg1 arg2 harg2 arg3 harg3 arg4 harg4 arg5 harg5 arg6 harg6 arg7 harg7 x0 x1 x2 x3 x4)]
    unfold kernelRun0_A
    dsimp only
    sl_unfold_words
    rw [View.canon_unit_zero hz3]
    simp only [View.readAt_eq_ld, harg1.read_unread, harg2.read_unread, harg3.read_unread, harg4.read_unread, harg5.read_unread,
      View.ld_unit_zero (S := S1x512x768) hz3, View.ld_unit_zero (S := S2304x768) hz2, View.ld_unit_zero (S := S2304) hz1,
      View.ld_unit_zero (S := S768x768) hz2, View.ld_unit_zero (S := S768) hz1]
    rfl
  rw [hb, scratch_eq, tail_eq,
    Ops.meanVec_apply bitsLt_bf16_f32 reduces_S512x768_S512 reduces_S512x512_S512 shapeCasts_S512_S512x1 broadcasts_S512x1_S512x768
      shapeCasts_S512x1_S1x512x1 dot_S512x768_S512x768_S512x512_1_1_0_0_n_n _ rfl r,
    Ops.outVec_mat bitsLt_bf16_f32 shapeCasts_S768x768_S768x768 shapeCasts_S768_S1x768 broadcasts_S1x768_S512x768
      dot_S512x768_S768x768_S512x768_1_1_0_0_n_n _ _ _ rfl]
  unfold attnCos
  have hc : Ops.mat (φ := .f32) (ctxG (k0_pay4 x0 x1 x2) (k0_pay5 x0 x1 x2) (k0_pay6 x0 x1 x2))
      = ctx (proj 0 (by norm_num) (xm x0) (wm x1) (bv x2)) (proj 768 (by norm_num) (xm x0) (wm x1) (bv x2))
          (proj 1536 (by norm_num) (xm x0) (wm x1) (bv x2)) := by
    rw [← queries_mat, ← keys_mat, ← values_mat]
    rfl
  rw [hc]

end Cert.Attn.Block

end
-- ==== Proof.Result.lean ====
/-
  The whole result array as one function of the five argument arrays.

  Entry (t, r, 0) of the [64, 512, 1] result is row r of the attention-and-cosine function of slab t of the input
  and of the weight and bias arrays (read as matrices and vectors by their coordinates); the slabs do not interact.
  Both programs' results are shown equal to this one function, index by index.
-/
import proofs.«115419_j39410619908371_1_alg».proof.Proof.Spec
import Idealize.ShloMosaic.Lib.ValueIdx

noncomputable section

namespace Cert.Attn

open Idealize.ShloMosaic Idealize.ShloMosaic.ValueIdx

/-- The result array: at (t, r, u), the function's row r for slab t. -/
def result (A0 : (⟨3, ![64, 512, 768]⟩ : Shape).Idx → EReal) (A1 : (⟨2, ![2304, 768]⟩ : Shape).Idx → EReal)
    (A2 : (⟨1, ![2304]⟩ : Shape).Idx → EReal) (A3 : (⟨2, ![768, 768]⟩ : Shape).Idx → EReal)
    (A4 : (⟨1, ![768]⟩ : Shape).Idx → EReal) : (⟨3, ![64, 512, 1]⟩ : Shape).Idx → EReal :=
  fun y => attnCos (fun r j => A0 (ix3 (y 0) r j)) (fun e j => A1 (ix2 e j)) (fun e => A2 (ix1 e)) (fun e j => A3 (ix2 e j))
    (fun e => A4 (ix1 e)) (y 1)

end Cert.Attn

end
-- ==== Proof.KernelArray.lean ====
/-
  From the blocks to the array: after the kernel's run the result array is the result function of the argument
  arrays.

  Grid point t is given slab t of the input (its window's block index is (t, 0, 0)) and the whole weight and bias
  arrays (block index 0 at every point; the two weight arrays arrive through a format change made before the launch,
  which is the identity on the extended reals), and it writes back block (t, 0, 0) of the result — the 512 × 1 slab t.
  The 64 blocks tile the result array, and each holds the function's rows for its own slab, so the array is the
  function everywhere.
-/
import proofs.«115419_j39410619908371_1_alg».proof.Proof.KernelBlock
import proofs.«115419_j39410619908371_1_alg».proof.Proof.Result
import Idealize.ShloMosaic.Lib.StableHlo.Run

set_option maxRecDepth 16384

noncomputable section

open Idealize.ShloMosaic Idealize.ShloMosaic.TcCoe Idealize.SL.Sem
open Idealize.ShloMosaic.Pipeline (Dat)

namespace Cert.Attn.Array

open Cert.KernelIdeal Cert.KernelIdeal.Gen Idealize.ShloMosaic.ValueIdx Cert.Attn

variable (m : (ℓ : Loc nD τ sig) → Buf (Elt Ideal) ℓ) (ρ : Dev nD → PrngReg)

/-- The printed index maps, decided over the 64 points: the input's and the result's block index is (t, 0, 0), every
    other window's is 0. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 3) = t.val ∧ win0_5.index t (1 : Fin 3) = 0 ∧ win0_5.index t (2 : Fin 3) = 0 :=
  (by decide +kernel : ∀ t : Fin grid0.N, _)

/-- A grid point as a slab number. -/
abbrev slabOf (t : Fin cfg0.N) : Fin 64 := ⟨t.val, by have h : t.val < grid0.N := t.isLt; have := N_0; omega⟩

/-- The converted weight arrays, as the region finds them, are the weight arrays. -/
theorem V_main_v0 (c : Dev nD) : (V m c main_v0 : S2304x768.Idx → EReal) = fun y => m ((c : Thread nD τ).loc main_arg1) y := by
  dsimp only [V, hostOps0]; after_results; rfl
theorem V_main_v1 (c : Dev nD) : (V m c main_v1 : S768x768.Idx → EReal) = fun y => m ((c : Thread nD τ).loc main_arg3) y := by
  dsimp only [V, hostOps0]; after_results; rfl

/-! ## What each input block is -/

theorem blk0 (c : Dev nD) (t : Fin cfg0.N) (r : Fin 512) (j : Fin 768) :
    (iblk m c 0 t : Vec Ideal S1x512x768 .f32) (ix3 (0 : Fin 1) r j)
      = m ((c : Thread nD τ).loc main_arg0) (ix3 (slabOf t) r j) := by
  obtain ⟨e0, e1, e2, -⟩ := idx_facts t
  show V m c main_arg0 (((cfg0.win 0).blk t).view.emb (ix3 (0 : Fin 1) r j)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 512 + 1 * r.val = r.val; omega
  | ⟨2, _⟩ => show win0_0.index t (2 : Fin 3) * 768 + 1 * j.val = j.val; omega

theorem blk1 (c : Dev nD) (t : Fin cfg0.N) (e : Fin 2304) (j : Fin 768) :
    (iblk m c 1 t : Vec Ideal S2304x768 .bf16) (ix2 e j) = m ((c : Thread nD τ).loc main_arg1) (ix2 e j) := by
  obtain ⟨-, -, -, e3, e4, -⟩ := idx_facts t
  show (V m c main_v0 : S2304x768.Idx → EReal) (((cfg0.win 1).blk t).view.emb (ix2 e j)) = _
  rw [V_main_v0]
  refine congrArg _ (funext fun a => Fin.ext ?_)
  match a with
  | ⟨0, _⟩ => show win0_1.index t (0 : Fin 2) * 2304 + 1 * e.val = e.val; omega
  | ⟨1, _⟩ => show win0_1.index t (1 : Fin 2) * 768 + 1 * j.val = j.val; omega

theorem blk2 (c : Dev nD) (t : Fin cfg0.N) (e : Fin 2304) :
    (iblk m c 2 t : Vec Ideal S2304 .f32) (ix1 e) = m ((c : Thread nD τ).loc main_arg2) (ix1 e) := by
  obtain ⟨-, -, -, -, -, e5, -⟩ := idx_facts t
  show V m c main_arg2 (((cfg0.win 2).blk t).view.emb (ix1 e)) = _
  rw [V_main_arg2]
  refine congrArg _ (funext fun a => Fin.ext ?_)
  match a with
  | ⟨0, _⟩ => show win0_2.index t (0 : Fin 1) * 2304 + 1 * e.val = e.val; omega

theorem blk3 (c : Dev nD) (t : Fin cfg0.N) (e : Fin 768) (j : Fin 768) :
    (iblk m c 3 t : Vec Ideal S768x768 .bf16) (ix2 e j) = m ((c : Thread nD τ).loc main_arg3) (ix2 e j) := by
  obtain ⟨-, -, -, -, -, -, e6, e7, -⟩ := idx_facts t
  show (V m c main_v1 : S768x768.Idx → EReal) (((cfg0.win 3).blk t).view.emb (ix2 e j)) = _
  rw [V_main_v1]
  refine congrArg _ (funext fun a => Fin.ext ?_)
  match a with
  | ⟨0, _⟩ => show win0_3.index t (0 : Fin 2) * 768 + 1 * e.val = e.val; omega
  | ⟨1, _⟩ => show win0_3.index t (1 : Fin 2) * 768 + 1 * j.val = j.val; omega

theorem blk4 (c : Dev nD) (t : Fin cfg0.N) (e : Fin 768) :
    (iblk m c 4 t : Vec Ideal S768 .f32) (ix1 e) = m ((c : Thread nD τ).loc main_arg4) (ix1 e) := by
  obtain ⟨-, -, -, -, -, -, -, -, e8, -⟩ := idx_facts t
  show V m c main_arg4 (((cfg0.win 4).blk t).view.emb (ix1 e)) = _
  rw [V_main_arg4]
  refine congrArg _ (funext fun a => Fin.ext ?_)
  match a with
  | ⟨0, _⟩ => show win0_4.index t (0 : Fin 1) * 768 + 1 * e.val = e.val; omega

/-! ## What each point writes back, and the array -/

/-- The result function of the argument arrays as launched. -/
abbrev resultOf (c : Dev nD) : S64x512x1.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-- WHAT POINT t WRITES BACK is block t of the result function. -/
theorem flushed_eq (c : Dev nD) (t : Fin cfg0.N) :
    (dats m 0 c).flushed 5 t = ((cfg0.win 5).blk t).view.read (Elt Ideal) (resultOf m c) := by
  rw [Cert.KernelIdeal.Value.flushed5_A]
  obtain ⟨-, -, -, -, -, -, -, -, -, e9, e10, e11⟩ := idx_facts t
  funext j
  obtain ⟨u, r, w, rfl⟩ : ∃ (u : Fin 1) (r : Fin 512) (w : Fin 1), j = ix3 u r w := ⟨j 0, j 1, j 2, eq_ix3 j⟩
  obtain rfl : u = 0 := Subsingleton.elim _ _
  obtain rfl : w = 0 := Subsingleton.elim _ _
  show out0_A_5 c (grid0.coords t) (ms0_0 t) (hs0_0 t) (ms0_1 t) (hs0_1 t) (ms0_2 t) (hs0_2 t) (ms0_3 t) (hs0_3 t) (ms0_4 t) (hs0_4 t)
      (ms0_5 t) (hs0_5 t) scM0_0 (Memref.isWhole_whole _) (iblk m c 0 t) (iblk m c 1 t) (iblk m c 2 t) (iblk m c 3 t) (iblk m c 4 t)
      (ix3 (0 : Fin 1) r (0 : Fin 1))
    = resultOf m c (((cfg0.win 5).blk t).view.emb (ix3 (0 : Fin 1) r (0 : Fin 1)))
  refine (Block.block_apply c (grid0.coords t) (ms0_0 t) (hs0_0 t) (ms0_1 t) (hs0_1 t) (ms0_2 t) (hs0_2 t) (ms0_3 t) (hs0_3 t)
    (ms0_4 t) (hs0_4 t) (ms0_5 t) (hs0_5 t) scM0_0 (Memref.isWhole_whole _) (iblk m c 0 t) (iblk m c 1 t) (iblk m c 2 t)
    (iblk m c 3 t) (iblk m c 4 t) r).trans ?_
  have hy : ((cfg0.win 5).blk t).view.emb (ix3 (0 : Fin 1) r (0 : Fin 1)) = ix3 (slabOf t) r (0 : Fin 1) :=
    funext fun a => Fin.ext (by
      match a with
      | ⟨0, _⟩ => show win0_5.index t (0 : Fin 3) * 1 + 1 * 0 = t.val; omega
      | ⟨1, _⟩ => show win0_5.index t (1 : Fin 3) * 512 + 1 * r.val = r.val; omega
      | ⟨2, _⟩ => show win0_5.index t (2 : Fin 3) * 1 + 1 * 0 = 0; omega)
  rw [hy]
  show _ = attnCos (fun r j => m ((c : Thread nD τ).loc main_arg0) (ix3 (slabOf t) r j))
      (fun e j => m ((c : Thread nD τ).loc main_arg1) (ix2 e j)) (fun e => m ((c : Thread nD τ).loc main_arg2) (ix1 e))
      (fun e j => m ((c : Thread nD τ).loc main_arg3) (ix2 e j)) (fun e => m ((c : Thread nD τ).loc main_arg4) (ix1 e)) r
  have h0 : Block.xm (iblk m c 0 t) = fun r j => m ((c : Thread nD τ).loc main_arg0) (ix3 (slabOf t) r j) :=
    funext fun r => funext fun j => blk0 m c t r j
  have h1 : Block.wm (iblk m c 1 t) = fun e j => m ((c : Thread nD τ).loc main_arg1) (ix2 e j) :=
    funext fun e => funext fun j => blk1 m c t e j
  have h2 : Block.bv (iblk m c 2 t) = fun e => m ((c : Thread nD τ).loc main_arg2) (ix1 e) :=
    funext fun e => blk2 m c t e
  have h3 : (fun e j => (iblk m c 3 t : Vec Ideal S768x768 .bf16) (ix2 e j)) = fun e j => m ((c : Thread nD τ).loc main_arg3) (ix2 e j) :=
    funext fun e => funext fun j => blk3 m c t e j
  have h4 : (fun e => (iblk m c 4 t : Vec Ideal S768 .f32) (ix1 e)) = fun e => m ((c : Thread nD τ).loc main_arg4) (ix1 e) :=
    funext fun e => blk4 m c t e
  rw [h0, h1, h2, h3, h4]

/-- An index of the result array is in point t's block iff each coordinate is in the block's range on its axis. -/
theorem mem_blk (t : Fin cfg0.N) (i : S64x512x1.Idx) :
    i ∈ ((cfg0.win 5).blk t).view.set ↔ ∀ a : Fin 3, win0_5.index t a * S1x512x1.size a ≤ (i a).val
      ∧ (i a).val < win0_5.index t a * S1x512x1.size a + S1x512x1.size a := by
  show i ∈ ((View.whole main_v2).slice (win0_5.rect t)).set ↔ _
  rw [View.set_slice_whole, Rect.mem_set_unit]
  exact Iff.rfl

/-- Every index of the result array is in the block of the point with its slab number. -/
theorem cover (i : S64x512x1.Idx) : ∃ t : Fin cfg0.N, (cfg0.win 5).flush t = true ∧ i ∈ ((cfg0.win 5).blk t).view.set := by
  have h0 : (i 0).val < 64 := (i 0).isLt
  have h1 : (i 1).val < 512 := (i 1).isLt
  have h2 : (i 2).val < 1 := (i 2).isLt
  have hN := N_0
  refine ⟨⟨(i 0).val, by show (i 0).val < grid0.N; omega⟩, flush0_5 _, ?_⟩
  rw [mem_blk]
  obtain ⟨-, -, -, -, -, -, -, -, -, e9, e10, e11⟩ := idx_facts ⟨(i 0).val, by show (i 0).val < grid0.N; omega⟩
  have e9' : win0_5.index ⟨(i 0).val, by show (i 0).val < grid0.N; omega⟩ (0 : Fin 3) = (i 0).val := e9
  intro a
  match a with
  | ⟨0, _⟩ =>
    show win0_5.index ⟨(i 0).val, _⟩ (0 : Fin 3) * 1 ≤ (i 0).val ∧ (i 0).val < win0_5.index ⟨(i 0).val, _⟩ (0 : Fin 3) * 1 + 1
    omega
  | ⟨1, _⟩ =>
    show win0_5.index ⟨(i 0).val, _⟩ (1 : Fin 3) * 512 ≤ (i 1).val ∧ (i 1).val < win0_5.index ⟨(i 0).val, _⟩ (1 : Fin 3) * 512 + 512
    omega
  | ⟨2, _⟩ =>
    show win0_5.index ⟨(i 0).val, _⟩ (2 : Fin 3) * 1 ≤ (i 2).val ∧ (i 2).val < win0_5.index ⟨(i 0).val, _⟩ (2 : Fin 3) * 1 + 1
    omega

/-- THE ARRAY after the run is the result function of the argument arrays. -/
theorem final (c : Dev nD) : (dats m 0 c).arrAt 5 cfg0.N = resultOf m c :=
  (dats m 0 c).arrAt_eq_of_cover 5 (resultOf m c) (fun t _ => flushed_eq m c t) cover

/-- The kernel's run, read: the result array at the result function of the arguments, the arguments unchanged. -/
theorem run : θ_run defs (onTc (τ := τ) (main (F := Ideal))) ⟨m, fun _ => 0, ρ⟩ fun r => ∀ c : Dev nD,
      r.2.mem ((c : Thread nD τ).loc main_v2) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.Attn.Array

end
-- ==== Proof.RefHeads.lean ====
/-
  The reference's operations up to the twelve contexts, read at an index on the extended reals.

  The reference works on all 64 slabs at once in a [slab, head, row, lane] layout.  Read at an index, each of its
  operations names one entry (or one row, or one contracted axis) of its operand, so slab t of every intermediate is a
  function of slab t of the input alone: the stacked projection x · Wᵀ + β, its three bands split into heads, the
  scores divided by 8 (which is the product with 1/8), the row maximum taken from minus infinity (and taken once more
  against minus infinity, which changes nothing), the exponentials, their row sums from zero, the quotients, the
  weighted sums of the value rows, and the heads laid side by side again.
-/
import proofs.«115419_j39410619908371_1_alg».proof.Proof.Gen.ReferenceIdeal.Read
import proofs.«115419_j39410619908371_1_alg».proof.Proof.Spec

noncomputable section

open scoped BigOperators

namespace Cert.Attn.Ref

open Cert.ReferenceIdeal Cert.ReferenceIdeal.Read Idealize.ShloMosaic Idealize.ShloMosaic.ValueIdx Cert.Attn

variable (X : (⟨S64x512x768, .f32⟩ : BufTy).Contents (Elt Ideal)) (W : (⟨S2304x768, .f32⟩ : BufTy).Contents (Elt Ideal)) (B : (⟨S2304, .f32⟩ : BufTy).Contents (Elt Ideal))

/-- Slab t of the input as a matrix, and the stacked weights and bias as a matrix and a vector. -/
abbrev slab (t : Fin 64) : Mat 512 768 := fun r j => X (ix3 t r j)
abbrev wmat : Mat 2304 768 := fun e j => W (ix2 e j)
abbrev bvec : Fin 2304 → EReal := fun e => B (ix1 e)

/-- The slab's queries, keys and values. -/
abbrev qm (t : Fin 64) : Mat 512 768 := proj 0 (by norm_num) (slab X t) (wmat W) (bvec B)
abbrev km (t : Fin 64) : Mat 512 768 := proj 768 (by norm_num) (slab X t) (wmat W) (bvec B)
abbrev vm (t : Fin 64) : Mat 512 768 := proj 1536 (by norm_num) (slab X t) (wmat W) (bvec B)

/-- The stacked projection: entry (t, r, e) is Σ_j x[t, r, j] · W[e, j] + β[e]. -/
theorem v3_apply (t : Fin 64) (r : Fin 512) (e : Fin 2304) :
    val_main_v3 (F := Ideal) X W B (ix3 t r e) = affine (slab X t) (wmat W) (bvec B) r e := by
  rw [val_main_v3_apply]
  show val_main_v0 (F := Ideal) X W (ix3 t r e) + val_main_v2 (F := Ideal) B (ix3 t r e) = _
  rw [val_main_v0_apply, val_main_v2_apply, val_main_v1_apply]
  unfold affine
  refine congrArg₂ (· + ·) (Finset.sum_congr rfl fun k _ => ?_) ?_
  · exact congrArg₂ (· * ·) (congrArg X (funext fun a => Fin.ext (by
      match a with
      | ⟨0, _⟩ => rfl
      | ⟨1, _⟩ => rfl
      | ⟨2, _⟩ => rfl)))
      (congrArg W (funext fun a => Fin.ext (by
      match a with
      | ⟨0, _⟩ => rfl
      | ⟨1, _⟩ => rfl)))
  · exact congrArg B (funext fun a => Fin.ext (by
      match a with
      | ⟨0, _⟩ => rfl))

/-- The queries of head h in the reference's [slab, head, row, lane] layout are columns [64h, 64h + 64) of the slab's queries matrix:
    the slice keeps the band of 768 columns that starts at 0, the reshape splits a column index j into (j / 64, j mod 64), and the
    transpose swaps the row and head axes. -/
theorem q4_apply (t : Fin 64) (h : Fin 12) (r : Fin 512) (d : Fin 64) :
    val_main_v8 (F := Ideal) X W B (ix4 t h r d)
      = colsAt (64 * h.val) (by have := h.isLt; omega) (qm X W B t) r d := by
  have hh := h.isLt; have hd := d.isLt; have ht := t.isLt; have hr := r.isLt
  rw [val_main_v8_apply, val_main_v7_apply, val_main_v4_apply]
  have hi : idx_main_v4 (idx_main_v7 (idx_main_v8 (ix4 t h r d))) = ix3 t r ⟨0 + (64 * h.val + d.val), by omega⟩ :=
    funext fun a => Fin.ext (by
      match a with
      | ⟨0, _⟩ => show (((t.val * 512 + r.val) * 12 + h.val) * 64 + d.val) / 393216 = t.val; omega
      | ⟨1, _⟩ => show (((t.val * 512 + r.val) * 12 + h.val) * 64 + d.val) / 768 % 512 = r.val; omega
      | ⟨2, _⟩ => show (((t.val * 512 + r.val) * 12 + h.val) * 64 + d.val) % 768 = 0 + (64 * h.val + d.val); omega)
  rw [hi, v3_apply]
  rfl

/-- The keys of head h in the reference's [slab, head, row, lane] layout are columns [64h, 64h + 64) of the slab's keys matrix:
    the slice keeps the band of 768 columns that starts at 768, the reshape splits a column index j into (j / 64, j mod 64), and the
    transpose swaps the row and head axes. -/
theorem k4_apply (t : Fin 64) (h : Fin 12) (r : Fin 512) (d : Fin 64) :
    val_main_v10 (F := Ideal) X W B (ix4 t h r d)
      = colsAt (64 * h.val) (by have := h.isLt; omega) (km X W B t) r d := by
  have hh := h.isLt; have hd := d.isLt; have ht := t.isLt; have hr := r.isLt
  rw [val_main_v10_apply, val_main_v9_apply, val_main_v5_apply]
  have hi : idx_main_v5 (idx_main_v9 (idx_main_v10 (ix4 t h r d))) = ix3 t r ⟨768 + (64 * h.val + d.val), by omega⟩ :=
    funext fun a => Fin.ext (by
      match a with
      | ⟨0, _⟩ => show (((t.val * 512 + r.val) * 12 + h.val) * 64 + d.val) / 393216 = t.val; omega
      | ⟨1, _⟩ => show (((t.val * 512 + r.val) * 12 + h.val) * 64 + d.val) / 768 % 512 = r.val; omega
      | ⟨2, _⟩ => show 768 + (((t.val * 512 + r.val) * 12 + h.val) * 64 + d.val) % 768 = 768 + (64 * h.val + d.val); omega)
  rw [hi, v3_apply]
  rfl

/-- The values of head h in the reference's [slab, head, row, lane] layout are columns [64h, 64h + 64) of the slab's values matrix:
    the slice keeps the band of 768 columns that starts at 1536, the reshape splits a column index j into (j / 64, j mod 64), and the
    transpose swaps the row and head axes. -/
theorem v4_apply (t : Fin 64) (h : Fin 12) (r : Fin 512) (d : Fin 64) :
    val_main_v12 (F := Ideal) X W B (ix4 t h r d)
      = colsAt (64 * h.val) (by have := h.isLt; omega) (vm X W B t) r d := by
  have hh := h.isLt; have hd := d.isLt; have ht := t.isLt; have hr := r.isLt
  rw [val_main_v12_apply, val_main_v11_apply, val_main_v6_apply]
  have hi : idx_main_v6 (idx_main_v11 (idx_main_v12 (ix4 t h r d))) = ix3 t r ⟨1536 + (64 * h.val + d.val), by omega⟩ :=
    funext fun a => Fin.ext (by
      match a with
      | ⟨0, _⟩ => show (((t.val * 512 + r.val) * 12 + h.val) * 64 + d.val) / 393216 = t.val; omega
      | ⟨1, _⟩ => show (((t.val * 512 + r.val) * 12 + h.val) * 64 + d.val) / 768 % 512 = r.val; omega
      | ⟨2, _⟩ => show 1536 + (((t.val * 512 + r.val) * 12 + h.val) * 64 + d.val) % 768 = 1536 + (64 * h.val + d.val); omega)
  rw [hi, v3_apply]
  rfl

/-- The columns of the slab's queries, keys and values that head h reads. -/
abbrev qh (t : Fin 64) (h : Fin 12) : Mat 512 64 := colsAt (64 * h.val) (by have := h.isLt; omega) (qm X W B t)
abbrev kh (t : Fin 64) (h : Fin 12) : Mat 512 64 := colsAt (64 * h.val) (by have := h.isLt; omega) (km X W B t)
abbrev vh (t : Fin 64) (h : Fin 12) : Mat 512 64 := colsAt (64 * h.val) (by have := h.isLt; omega) (vm X W B t)

/-- The scores divided by the word 8 are the scaled scores. -/
theorem v15_apply (t : Fin 64) (h : Fin 12) (r c : Fin 512) :
    val_main_v15 (F := Ideal) X W B (ix4 t h r c) = scores (qh X W B t h) (kh X W B t h) r c := by
  rw [val_main_v15_apply]
  show Ideal.div (val_main_v13 (F := Ideal) X W B (ix4 t h r c)) (val_main_v14 (F := Ideal) (ix4 t h r c)) = _
  rw [val_main_v13_apply, val_main_v14_apply, val_main_cst_apply]
  show Ideal.div _ (Ideal.ofBits .f32 0x41000000#32) = _
  rw [div_eight]
  unfold scores
  refine congrArg (· * eighth) (Finset.sum_congr rfl fun k _ => ?_)
  have e1 : lidx_main_v13 (ix4 t h r c) k = ix4 t h r k := funext fun a => Fin.ext (by
      match a with
      | ⟨0, _⟩ => rfl
      | ⟨1, _⟩ => rfl
      | ⟨2, _⟩ => rfl
      | ⟨3, _⟩ => rfl)
  have e2 : ridx_main_v13 (ix4 t h r c) k = ix4 t h c k := funext fun a => Fin.ext (by
      match a with
      | ⟨0, _⟩ => rfl
      | ⟨1, _⟩ => rfl
      | ⟨2, _⟩ => rfl
      | ⟨3, _⟩ => rfl)
  rw [e1, e2, q4_apply, k4_apply]

/-- The row maximum from minus infinity, and once more against minus infinity. -/
theorem v18_apply (t : Fin 64) (h : Fin 12) (r : Fin 512) :
    val_main_v18 (F := Ideal) X W B (ix3 t h r) = rowMax (scores (qh X W B t h) (kh X W B t h)) r := by
  have hR : S64x12x512x512.Reduces [3] S64x12x512 := by decide
  rw [val_main_v18_apply]
  show max (val_main_v17 (F := Ideal) (ix3 t h r)) (val_main_v16 (F := Ideal) X W B (ix3 t h r)) = _
  rw [val_main_v17_apply, val_main_cst_1_apply]
  unfold val_main_v16
  rw [Host.reduce_eq_fold_single FloatOps.maximumf _ _ Gen.reducesTo_S64x12x512x512_S64x12x512_d3 hR Gen.h_S_ (ix3 t h r),
    val_main_cst_0_apply]
  refine (max_fold_max (b := 512) negInf (fun k => val_main_v15 (F := Ideal) X W B (hR.lift (ix3 t h r) k))).trans ?_
  unfold rowMax
  refine congrArg (fun g => (Finset.univ : Finset (Fin 512)).fold max negInf g) (funext fun k => ?_)
  have e1 : hR.lift (ix3 t h r) k = ix4 t h r k := funext fun a => Fin.ext (by
      match a with
      | ⟨0, _⟩ => rfl
      | ⟨1, _⟩ => rfl
      | ⟨2, _⟩ => rfl
      | ⟨3, _⟩ => rfl)
  rw [e1, v15_apply]

/-- The exponentials of the scores minus their row maximum. -/
theorem v22_apply (t : Fin 64) (h : Fin 12) (r c : Fin 512) :
    val_main_v22 (F := Ideal) X W B (ix4 t h r c) = expShift (scores (qh X W B t h) (kh X W B t h)) r c := by
  rw [val_main_v22_apply, val_main_v21_apply, val_main_v20_apply, val_main_v19_apply]
  have e1 : idx_main_v19 (idx_main_v20 (ix4 t h r c)) = ix3 t h r := funext fun a => Fin.ext (by
      match a with
      | ⟨0, _⟩ => rfl
      | ⟨1, _⟩ => rfl
      | ⟨2, _⟩ => rfl)
  show Ideal.exp (val_main_v15 (F := Ideal) X W B (ix4 t h r c)
      - val_main_v18 (F := Ideal) X W B (idx_main_v19 (idx_main_v20 (ix4 t h r c)))) = _
  rw [e1, v15_apply, v18_apply]
  rfl

/-- The softmax weights: the exponentials over their row sums (from the zero word). -/
theorem v26_apply (t : Fin 64) (h : Fin 12) (r c : Fin 512) :
    val_main_v26 (F := Ideal) X W B (ix4 t h r c) = softmax (scores (qh X W B t h) (kh X W B t h)) r c := by
  rw [val_main_v26_apply, val_main_v25_apply, val_main_v24_apply, val_main_v23_apply, val_main_cst_2_apply]
  show Ideal.div (val_main_v22 (F := Ideal) X W B (ix4 t h r c))
      (Ideal.ofBits .f32 0x00000000#32
        + ∑ k : Fin 512, val_main_v22 (F := Ideal) X W B (idx_main_v23 (idx_main_v24 (idx_main_v25 (ix4 t h r c))) k)) = _
  rw [ofBits_zero, zero_add, v22_apply]
  unfold softmax
  refine congrArg (Ideal.div _) (Finset.sum_congr rfl fun k _ => ?_)
  have e1 : idx_main_v23 (idx_main_v24 (idx_main_v25 (ix4 t h r c))) k = ix4 t h r k := funext fun a => Fin.ext (by
      match a with
      | ⟨0, _⟩ => rfl
      | ⟨1, _⟩ => rfl
      | ⟨2, _⟩ => rfl
      | ⟨3, _⟩ => rfl)
  rw [e1, v22_apply]

/-- The head's context: the weights times the value rows. -/
theorem v27_apply (t : Fin 64) (h : Fin 12) (r : Fin 512) (d : Fin 64) :
    val_main_v27 (F := Ideal) X W B (ix4 t h r d) = headAt (qm X W B t) (km X W B t) (vm X W B t) h r d := by
  rw [val_main_v27_apply]
  unfold headAt head
  refine Finset.sum_congr rfl fun k _ => ?_
  have e1 : lidx_main_v27 (ix4 t h r d) k = ix4 t h r k := funext fun a => Fin.ext (by
      match a with
      | ⟨0, _⟩ => rfl
      | ⟨1, _⟩ => rfl
      | ⟨2, _⟩ => rfl
      | ⟨3, _⟩ => rfl)
  have e2 : ridx_main_v27 (ix4 t h r d) k = ix4 t h k d := funext fun a => Fin.ext (by
      match a with
      | ⟨0, _⟩ => rfl
      | ⟨1, _⟩ => rfl
      | ⟨2, _⟩ => rfl
      | ⟨3, _⟩ => rfl)
  rw [e1, e2, v26_apply, v4_apply]

/-- The heads side by side again: column j of the slab's context matrix is lane j mod 64 of head j / 64. -/
theorem v29_apply (t : Fin 64) (r : Fin 512) (j : Fin 768) :
    val_main_v29 (F := Ideal) X W B (ix3 t r j) = ctx (qm X W B t) (km X W B t) (vm X W B t) r j := by
  have hj := j.isLt; have ht := t.isLt; have hr := r.isLt
  rw [val_main_v29_apply, val_main_v28_apply]
  have hi : idx_main_v28 (idx_main_v29 (ix3 t r j))
      = ix4 t ⟨j.val / 64, by omega⟩ r ⟨j.val % 64, Nat.mod_lt _ (by norm_num)⟩ :=
    funext fun a => Fin.ext (by
      match a with
      | ⟨0, _⟩ => show ((t.val * 512 + r.val) * 768 + j.val) / 393216 = t.val; omega
      | ⟨1, _⟩ => show ((t.val * 512 + r.val) * 768 + j.val) / 64 % 12 = j.val / 64; omega
      | ⟨2, _⟩ => show ((t.val * 512 + r.val) * 768 + j.val) / 768 % 512 = r.val; omega
      | ⟨3, _⟩ => show ((t.val * 512 + r.val) * 768 + j.val) % 64 = j.val % 64; omega)
  rw [hi, v27_apply]
  rfl

end Cert.Attn.Ref

end
-- ==== Proof.RefTail.lean ====
/-
  The reference's tail read at an index on the extended reals: the output projection of the contexts, the length of
  every output row (the square root of the sum of its squares from the zero word, bounded below), the rows divided by
  their lengths, the inner products of all pairs of normalised rows of a slab, and their mean over the FIRST index of
  the pair.  The kernel averages over the second; the product of extended reals commutes, so the similarity matrix is
  symmetric and the two means are the same number.
-/
import proofs.«115419_j39410619908371_1_alg».proof.Proof.RefHeads

noncomputable section

open scoped BigOperators

namespace Cert.Attn.Ref

open Cert.ReferenceIdeal Cert.ReferenceIdeal.Read Idealize.ShloMosaic Idealize.ShloMosaic.ValueIdx Cert.Attn

variable (X : (⟨S64x512x768, .f32⟩ : BufTy).Contents (Elt Ideal)) (W : (⟨S2304x768, .f32⟩ : BufTy).Contents (Elt Ideal)) (B : (⟨S2304, .f32⟩ : BufTy).Contents (Elt Ideal))
  (Wo : (⟨S768x768, .f32⟩ : BufTy).Contents (Elt Ideal)) (Bo : (⟨S768, .f32⟩ : BufTy).Contents (Elt Ideal))

/-- The output weights and bias as a matrix and a vector. -/
abbrev womat : Mat 768 768 := fun e j => Wo (ix2 e j)
abbrev bovec : Fin 768 → EReal := fun e => Bo (ix1 e)

/-- Slab t of the attention output: the contexts through the output projection. -/
abbrev om (t : Fin 64) : Mat 512 768 :=
  affine (ctx (qm X W B t) (km X W B t) (vm X W B t)) (womat Wo) (bovec Bo)

theorem v33_apply (t : Fin 64) (r : Fin 512) (e : Fin 768) :
    val_main_v33 (F := Ideal) X W B Wo Bo (ix3 t r e) = om X W B Wo Bo t r e := by
  rw [val_main_v33_apply]
  show val_main_v30 (F := Ideal) X W B Wo (ix3 t r e) + val_main_v32 (F := Ideal) Bo (ix3 t r e) = _
  rw [val_main_v30_apply, val_main_v32_apply, val_main_v31_apply]
  show _ = (∑ j : Fin 768, ctx (qm X W B t) (km X W B t) (vm X W B t) r j * Wo (ix2 e j)) + Bo (ix1 e)
  refine congrArg₂ (· + ·) (Finset.sum_congr rfl fun k _ => ?_) ?_
  · have e1 : lidx_main_v30 (ix3 t r e) k = ix3 t r k := funext fun a => Fin.ext (by
      match a with
      | ⟨0, _⟩ => rfl
      | ⟨1, _⟩ => rfl
      | ⟨2, _⟩ => rfl)
    have e2 : ridx_main_v30 (ix3 t r e) k = ix2 e k := funext fun a => Fin.ext (by
      match a with
      | ⟨0, _⟩ => rfl
      | ⟨1, _⟩ => rfl)
    rw [e1, e2, v29_apply]
  · exact congrArg Bo (funext fun a => Fin.ext (by
      match a with
      | ⟨0, _⟩ => rfl))

/-- The length of row r of the slab's output, bounded below. -/
theorem v36_apply (t : Fin 64) (r : Fin 512) :
    val_main_v36 (F := Ideal) X W B Wo Bo (ix2 t r) = rowNorm (om X W B Wo Bo t) r := by
  rw [val_main_v36_apply, val_main_v34_apply, val_main_call0_v1_apply, val_main_v35_apply, val_main_cst_3_apply,
    val_main_call0_cst_apply]
  show max (Ideal.sqrt (Ideal.ofBits .f32 0x00000000#32
      + ∑ k : Fin 768, val_main_call0_v0 (F := Ideal) X W B Wo Bo (idx_main_call0_v1 (ix2 t r) k)))
      (Ideal.ofBits .f32 0x322BCC77#32) = _
  rw [ofBits_zero, zero_add]
  unfold rowNorm
  refine congrArg (fun s => max (Ideal.sqrt s) normFloor) (Finset.sum_congr rfl fun k _ => ?_)
  have e1 : idx_main_call0_v1 (ix2 t r) k = ix3 t r k := funext fun a => Fin.ext (by
      match a with
      | ⟨0, _⟩ => rfl
      | ⟨1, _⟩ => rfl
      | ⟨2, _⟩ => rfl)
  rw [e1, val_main_call0_v0_apply, v33_apply]
  rfl

/-- The rows divided by their lengths. -/
theorem v39_apply (t : Fin 64) (r : Fin 512) (e : Fin 768) :
    val_main_v39 (F := Ideal) X W B Wo Bo (ix3 t r e) = unitRows (om X W B Wo Bo t) r e := by
  rw [val_main_v39_apply, val_main_v38_apply, val_main_v37_apply]
  have e1 : idx_main_v37 (idx_main_v38 (ix3 t r e)) = ix2 t r := funext fun a => Fin.ext (by
      match a with
      | ⟨0, _⟩ => rfl
      | ⟨1, _⟩ => rfl)
  show Ideal.div (val_main_v33 (F := Ideal) X W B Wo Bo (ix3 t r e))
      (val_main_v36 (F := Ideal) X W B Wo Bo (idx_main_v37 (idx_main_v38 (ix3 t r e)))) = _
  rw [e1, v33_apply, v36_apply]
  rfl

/-- The result at (t, r, 0): the mean over the first index of the similarity matrix's column r, which is the mean
    over the second index of its row r. -/
theorem v44_apply (t : Fin 64) (r : Fin 512) :
    val_main_v44 (F := Ideal) X W B Wo Bo (ix3 t r (0 : Fin 1)) = cosMean (om X W B Wo Bo t) r := by
  rw [val_main_v44_apply]
  have e0 : idx_main_v44 (ix3 t r (0 : Fin 1)) = ix2 t r := funext fun a => Fin.ext (by
      match a with
      | ⟨0, _⟩ => rfl
      | ⟨1, _⟩ => rfl)
  rw [e0, val_main_v43_apply, val_main_v42_apply, val_main_cst_5_apply, val_main_v41_apply, val_main_cst_4_apply]
  show Ideal.div (Ideal.ofBits .f32 0x00000000#32
      + ∑ k : Fin 512, val_main_v40 (F := Ideal) X W B Wo Bo (idx_main_v41 (ix2 t r) k)) (Ideal.ofBits .f32 0x44000000#32) = _
  rw [ofBits_zero, zero_add]
  refine Eq.trans ?_ (cosMean_swap (om X W B Wo Bo t) r)
  refine congrArg (fun s => Ideal.div s rowCount) (Finset.sum_congr rfl fun k _ => ?_)
  have e1 : idx_main_v41 (ix2 t r) k = ix3 t k r := funext fun a => Fin.ext (by
      match a with
      | ⟨0, _⟩ => rfl
      | ⟨1, _⟩ => rfl
      | ⟨2, _⟩ => rfl)
  rw [e1, val_main_v40_apply]
  refine Finset.sum_congr rfl fun e _ => ?_
  have e2 : lidx_main_v40 (ix3 t k r) e = ix3 t k e := funext fun a => Fin.ext (by
      match a with
      | ⟨0, _⟩ => rfl
      | ⟨1, _⟩ => rfl
      | ⟨2, _⟩ => rfl)
  have e3 : ridx_main_v40 (ix3 t k r) e = ix3 t r e := funext fun a => Fin.ext (by
      match a with
      | ⟨0, _⟩ => rfl
      | ⟨1, _⟩ => rfl
      | ⟨2, _⟩ => rfl)
  rw [e2, e3, v39_apply, v39_apply]

end Cert.Attn.Ref

end
-- ==== Proof.RefWhole.lean ====
/-
  The reference's result array is the result function of its five argument arrays: entry (t, r, 0), read through
  the chain of its operations, is row r of the attention-and-cosine function of slab t.
-/
import proofs.«115419_j39410619908371_1_alg».proof.Proof.RefTail
import proofs.«115419_j39410619908371_1_alg».proof.Proof.Result

noncomputable section

namespace Cert.Attn.Ref

open Cert.ReferenceIdeal Cert.ReferenceIdeal.Read Idealize.ShloMosaic Idealize.ShloMosaic.ValueIdx Cert.Attn

variable (X : (⟨S64x512x768, .f32⟩ : BufTy).Contents (Elt Ideal)) (W : (⟨S2304x768, .f32⟩ : BufTy).Contents (Elt Ideal)) (B : (⟨S2304, .f32⟩ : BufTy).Contents (Elt Ideal))
  (Wo : (⟨S768x768, .f32⟩ : BufTy).Contents (Elt Ideal)) (Bo : (⟨S768, .f32⟩ : BufTy).Contents (Elt Ideal))

theorem reference_eq : val_main_v44 (F := Ideal) X W B Wo Bo = result X W B Wo Bo := by
  funext y
  obtain ⟨t, r, u, rfl⟩ : ∃ (t : Fin 64) (r : Fin 512) (u : Fin 1), y = ix3 t r u := ⟨y 0, y 1, y 2, eq_ix3 y⟩
  obtain rfl : u = 0 := Subsingleton.elim _ _
  rw [v44_apply]
  rfl

end Cert.Attn.Ref

end
-- ==== Proof.lean ====
/-
  Multi-head self-attention with a mean-cosine-similarity read-out: the Pallas kernel against its jnp reference, on
  the extended reals.

  For each of 64 slabs x (512 × 768) of the input the two programs compute the same function:
      q, κ, v = x · Wᵀ + β for the three 768-row bands of the stacked weights and bias;
      for each of the twelve heads h, on columns [64h, 64h + 64):  c_h = softmax (q_h · κ_hᵀ / 8) · v_h;
      o = [c_0 … c_11] · Woᵀ + βo;   n_i = max (‖o_i‖, ε);   u_i = o_i / n_i;
      result_i = (Σ_j ⟨u_i, u_j⟩) / 512.
  The kernel runs one slab per grid point, the heads one after the other into a scratch matrix, and scales the scores
  by the word 1/8; the reference runs all slabs at once in a [slab, head, row, lane] layout, divides the scores by the
  word 8, takes the row maximum once more against minus infinity, and averages the similarity matrix over its first
  index rather than its second.  On the extended reals a change of float format is the identity, dividing by 8 is
  multiplying by 1/8, the extra maximum changes nothing, and the similarity matrix is symmetric because the product
  commutes; every other step is the same operation on the same entries on both sides, so no finiteness of the inputs
  is used.

  The modules: LibSoftmaxRows (the softmax of every row, as vector operations and as a plain function, for any extents),
  Spec (the function, over plain matrices), Result (the result array as a function of the argument
  arrays), KernelOps / KernelBlock / KernelArray (the kernel's vector operations, one grid point's block, the array
  after the run), RefHeads / RefTail / RefWhole (the reference's operations read at an index).  Both runs end with the
  result array at Result's function of arguments that agree, which is the algebraic claim; the ideal pass rewrote
  nothing, so the idealization claim is trivial; the three frames are the generated runs.
-/
import proofs.«115419_j39410619908371_1_alg».proof.Defs
import proofs.«115419_j39410619908371_1_alg».proof.Proof.Gen.Kernel
import proofs.«115419_j39410619908371_1_alg».proof.Proof.Gen.Kernel.Frame
import proofs.«115419_j39410619908371_1_alg».proof.Proof.Gen.KernelIdeal
import proofs.«115419_j39410619908371_1_alg».proof.Proof.Gen.KernelIdeal.Frame
import proofs.«115419_j39410619908371_1_alg».proof.Proof.Gen.KernelIdeal.Value
import proofs.«115419_j39410619908371_1_alg».proof.Proof.Gen.ReferenceIdeal
import proofs.«115419_j39410619908371_1_alg».proof.Proof.Gen.ReferenceIdeal.Run
import proofs.«115419_j39410619908371_1_alg».proof.Proof.Gen.ReferenceIdeal.Read
import proofs.«115419_j39410619908371_1_alg».proof.Proof.Gen.Pre_finite_inputs
import proofs.«115419_j39410619908371_1_alg».proof.Proof.KernelArray
import proofs.«115419_j39410619908371_1_alg».proof.Proof.RefWhole
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories that agree on the arguments both programs end with the result array at the one result function of
    those arguments. -/
theorem algebraic : Cert.algebraic_KernelIdeal_ReferenceIdeal := by
  intro m ρ m' ρ' _ hagree
  refine ⟨fun c => Cert.Attn.Array.resultOf m c, Cert.Attn.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, Cert.Attn.Ref.reference_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
